-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S64x128 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S64x128 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S53248x128 : Shape := ⟨2, ![53248, 128]⟩
abbrev S53248x1 : Shape := ⟨2, ![53248, 1]⟩
abbrev S1x128 : Shape := ⟨2, ![1, 128]⟩
abbrev S4096x128 : Shape := ⟨2, ![4096, 128]⟩
abbrev S4096x1 : Shape := ⟨2, ![4096, 1]⟩
abbrev S1x64 : Shape := ⟨2, ![1, 64]⟩
abbrev S53248x64 : Shape := ⟨2, ![53248, 64]⟩
abbrev S4096x64 : Shape := ⟨2, ![4096, 64]⟩
abbrev S128x64 : Shape := ⟨2, ![128, 64]⟩
abbrev S50000x64 : Shape := ⟨2, ![50000, 64]⟩

abbrev nBuf : Space → Nat
  | .hbm => 94
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S850000, .i32⟩
  | .hbm, ⟨21, _⟩ => ⟨S850000, .i1⟩
  | .hbm, ⟨22, _⟩ => ⟨S_, .i32⟩
  | .hbm, ⟨23, _⟩ => ⟨S850000, .i32⟩
  | .hbm, ⟨24, _⟩ => ⟨S850000, .i32⟩
  | .hbm, ⟨25, _⟩ => ⟨S850000, .i32⟩
  | .hbm, ⟨26, _⟩ => ⟨S850000x1, .i32⟩
  | .hbm, ⟨27, _⟩ => ⟨S850000x128, .f32⟩
  | .hbm, ⟨28, _⟩ => ⟨S_, .f32⟩
  | .hbm, ⟨29, _⟩ => ⟨S50000x128, .f32⟩
  | .hbm, ⟨30, _⟩ => ⟨S850000x1, .i32⟩
  | .hbm, ⟨31, _⟩ => ⟨S50000x128, .f32⟩
  | .hbm, ⟨32, _⟩ => ⟨S_, .i32⟩
  | .hbm, ⟨33, _⟩ => ⟨S_, .f32⟩
  | .hbm, ⟨34, _⟩ => ⟨S53248x128, .f32⟩
  | .hbm, ⟨35, _⟩ => ⟨S_, .i32⟩
  | .hbm, ⟨36, _⟩ => ⟨S_, .f32⟩
  | .hbm, ⟨37, _⟩ => ⟨S53248x128, .f32⟩
  | .hbm, ⟨38, _⟩ => ⟨S_, .i32⟩
  | .hbm, ⟨39, _⟩ => ⟨S_, .f32⟩
  | .hbm, ⟨40, _⟩ => ⟨S53248x1, .f32⟩
  | .hbm, ⟨41, _⟩ => ⟨S1x128, .f32⟩
  | .hbm, ⟨42, _⟩ => ⟨S53248x128, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S_, .f32⟩
  | .hbm, ⟨54, _⟩ => ⟨S50000x128, .f32⟩
  | .hbm, ⟨55, _⟩ => ⟨S850000x1, .i32⟩
  | .hbm, ⟨56, _⟩ => ⟨S50000x128, .f32⟩
  | .hbm, ⟨57, _⟩ => ⟨S_, .i32⟩
  | .hbm, ⟨58, _⟩ => ⟨S_, .f32⟩
  | .hbm, ⟨59, _⟩ => ⟨S53248x128, .f32⟩
  | .hbm, ⟨60, _⟩ => ⟨S_, .i32⟩
  | .hbm, ⟨61, _⟩ => ⟨S_, .f32⟩
  | .hbm, ⟨62, _⟩ => ⟨S53248x128, .f32⟩
  | .hbm, ⟨63, _⟩ => ⟨S_, .i32⟩
  | .hbm, ⟨64, _⟩ => ⟨S_, .f32⟩
  | .hbm, ⟨65, _⟩ => ⟨S53248x1, .f32⟩
  | .hbm, ⟨66, _⟩ => ⟨S1x128, .f32⟩
  | .hbm, ⟨67, _⟩ => ⟨S53248x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S_, .i32⟩
  | .hbm, ⟨83, _⟩ => ⟨S_, .f32⟩
  | .hbm, ⟨84, _⟩ => ⟨S53248x128, .f32⟩
  | .hbm, ⟨85, _⟩ => ⟨S_, .i32⟩
  | .hbm, ⟨86, _⟩ => ⟨S_, .f32⟩
  | .hbm, ⟨87, _⟩ => ⟨S53248x128, .f32⟩
  | .hbm, ⟨88, _⟩ => ⟨S_, .i32⟩
  | .hbm, ⟨89, _⟩ => ⟨S_, .f32⟩
  | .hbm, ⟨90, _⟩ => ⟨S53248x1, .f32⟩
  | .hbm, ⟨91, _⟩ => ⟨S1x64, .f32⟩
  | .hbm, ⟨92, _⟩ => ⟨S53248x64, .f32⟩
  | .hbm, ⟨93, _⟩ => ⟨S50000x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S128x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x1, .f32⟩
  | .local _ .vmem, ⟨15, _⟩ => ⟨S4096x1, .f32⟩
  | .local _ .vmem, ⟨16, _⟩ => ⟨S128x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x1, .f32⟩
  | .local _ .vmem, ⟨25, _⟩ => ⟨S4096x1, .f32⟩
  | .local _ .vmem, ⟨26, _⟩ => ⟨S64x128, .f32⟩
  | .local _ .vmem, ⟨27, _⟩ => ⟨S1x64, .f32⟩
  | .local _ .vmem, ⟨28, _⟩ => ⟨S4096x64, .f32⟩
  | .local _ .vmem, ⟨29, _⟩ => ⟨S4096x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_call0_v0 : Ref sig .tc := ⟨.hbm, 33, rfl⟩
abbrev main_v18 : Ref sig .tc := ⟨.hbm, 34, rfl⟩
abbrev main_c_4 : Ref sig .tc := ⟨.hbm, 35, rfl⟩
abbrev main_call1_v0 : Ref sig .tc := ⟨.hbm, 36, rfl⟩
abbrev main_v19 : Ref sig .tc := ⟨.hbm, 37, rfl⟩
abbrev main_c_5 : Ref sig .tc := ⟨.hbm, 38, rfl⟩
abbrev main_call2_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_call3_v0 : Ref sig .tc := ⟨.hbm, 58, rfl⟩
abbrev main_v34 : Ref sig .tc := ⟨.hbm, 59, rfl⟩
abbrev main_c_10 : Ref sig .tc := ⟨.hbm, 60, rfl⟩
abbrev main_call4_v0 : Ref sig .tc := ⟨.hbm, 61, rfl⟩
abbrev main_v35 : Ref sig .tc := ⟨.hbm, 62, rfl⟩
abbrev main_c_11 : Ref sig .tc := ⟨.hbm, 63, rfl⟩
abbrev main_call5_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_15 : Ref sig .tc := ⟨.hbm, 82, rfl⟩
abbrev main_call6_v0 : Ref sig .tc := ⟨.hbm, 83, rfl⟩
abbrev main_v50 : Ref sig .tc := ⟨.hbm, 84, rfl⟩
abbrev main_c_16 : Ref sig .tc := ⟨.hbm, 85, rfl⟩
abbrev main_call7_v0 : Ref sig .tc := ⟨.hbm, 86, rfl⟩
abbrev main_v51 : Ref sig .tc := ⟨.hbm, 87, rfl⟩
abbrev main_c_17 : Ref sig .tc := ⟨.hbm, 88, rfl⟩
abbrev main_call8_v0 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S_S50000x128 : S_.BroadcastsInDim S50000x128 (![] : Fin 0 → Fin S50000x128.rank)
  pads_S50000x128_S53248x128_032480_000 : S50000x128.Pads (![0, 0] : Fin 2 → Nat) ![3248, 0] ![0, 0] S53248x128
  h_S_ : 0 < S_.numel
  pads_S50000x1_S53248x1_032480_000 : S50000x1.Pads (![0, 0] : Fin 2 → Nat) ![3248, 0] ![0, 0] S53248x1
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S53248x128_S50000x128_0_0 : S53248x128.Slices ![0, 0] S50000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S53248x64_S50000x64_0_0 : S53248x64.Slices ![0, 0] S50000x64
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S53248x128.size a
  hwx0_0 : ∀ i : grid0.Coords, EltTy.bits .f32 = 32 ∨ (Rect.block (s := S53248x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S53248x128.size a
  hwx0_1 : ∀ i : grid0.Coords, EltTy.bits .f32 = 32 ∨ (Rect.block (s := S53248x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S53248x1.size a
  hwx0_2 : ∀ i : grid0.Coords, EltTy.bits .f32 = 32 ∨ (Rect.block (s := S53248x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S53248x128.size a
  hwx0_5 : ∀ i : grid0.Coords, EltTy.bits .f32 = 32 ∨ (Rect.block (s := S53248x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S53248x128.size a
  hwx1_0 : ∀ i : grid1.Coords, EltTy.bits .f32 = 32 ∨ (Rect.block (s := S53248x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S53248x128.size a
  hwx1_1 : ∀ i : grid1.Coords, EltTy.bits .f32 = 32 ∨ (Rect.block (s := S53248x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S53248x1.size a
  hwx1_2 : ∀ i : grid1.Coords, EltTy.bits .f32 = 32 ∨ (Rect.block (s := S53248x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S53248x128.size a
  hwx1_5 : ∀ i : grid1.Coords, EltTy.bits .f32 = 32 ∨ (Rect.block (s := S53248x128) S4096x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S53248x128.size a
  hwx2_0 : ∀ i : grid2.Coords, EltTy.bits .f32 = 32 ∨ (Rect.block (s := S53248x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S53248x128.size a
  hwx2_1 : ∀ i : grid2.Coords, EltTy.bits .f32 = 32 ∨ (Rect.block (s := S53248x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S53248x1.size a
  hwx2_2 : ∀ i : grid2.Coords, EltTy.bits .f32 = 32 ∨ (Rect.block (s := S53248x1) S4096x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x64.size a ≤ S53248x64.size a
  hwx2_5 : ∀ i : grid2.Coords, EltTy.bits .f32 = 32 ∨ (Rect.block (s := S53248x64) S4096x64.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

abbrev win0_0 : Pipeline.Window sig grid0 :=
  Pipeline.Window.ofSpec (Memref.whole main_v18) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S4096x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .i32⟩
  | .hbm, ⟨13, _⟩ => ⟨S850000, .i32⟩
  | .hbm, ⟨14, _⟩ => ⟨S850000, .i1⟩
  | .hbm, ⟨15, _⟩ => ⟨S_, .i32⟩
  | .hbm, ⟨16, _⟩ => ⟨S850000, .i32⟩
  | .hbm, ⟨17, _⟩ => ⟨S850000, .i32⟩
  | .hbm, ⟨18, _⟩ => ⟨S850000, .i32⟩
  | .hbm, ⟨19, _⟩ => ⟨S850000x1, .i32⟩
  | .hbm, ⟨20, _⟩ => ⟨S850000x128, .f32⟩
  | .hbm, ⟨21, _⟩ => ⟨S_, .f32⟩
  | .hbm, ⟨22, _⟩ => ⟨S50000x128, .f32⟩
  | .hbm, ⟨23, _⟩ => ⟨S850000x1, .i32⟩
  | .hbm, ⟨24, _⟩ => ⟨S50000x128, .f32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S50000x128, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S_, .f32⟩
  | .hbm, ⟨60, _⟩ => ⟨S850000, .f32⟩
  | .hbm, ⟨61, _⟩ => ⟨S_, .f32⟩
  | .hbm, ⟨62, _⟩ => ⟨S50000, .f32⟩
  | .hbm, ⟨63, _⟩ => ⟨S850000x1, .i32⟩
  | .hbm, ⟨64, _⟩ => ⟨S50000, .f32⟩
  | .hbm, ⟨65, _⟩ => ⟨S50000x128, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S_, .f32⟩
  | .hbm, ⟨94, _⟩ => ⟨S850000, .f32⟩
  | .hbm, ⟨95, _⟩ => ⟨S_, .f32⟩
  | .hbm, ⟨96, _⟩ => ⟨S50000, .f32⟩
  | .hbm, ⟨97, _⟩ => ⟨S850000x1, .i32⟩
  | .hbm, ⟨98, _⟩ => ⟨S50000, .f32⟩
  | .hbm, ⟨99, _⟩ => ⟨S50000x128, .f32⟩
  | .hbm, ⟨100, _⟩ => ⟨S50000x1, .f32⟩
  | .hbm, ⟨101, _⟩ => ⟨S_, .f32⟩
  | .hbm, ⟨102, _⟩ => ⟨S50000x1, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S128x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel's run with its RESULT named.

  The idealized kernel's @main is a chain of host stretches and three launches; the generated frame module folds the
  buffer contents through that chain, one boundary at a time, and proves that every weakly fair execution ends with
  every buffer outside the kernels' scratch at the last boundary's contents. The frame claim keeps only the argument
  arrays from that; here the same run is stated with the result array kept as well: it ends at the last boundary's
  contents of the result buffer, a closed term of the launch memory that the next module reads back layer by layer.
-/
import proofs.«115634_j10282151707715_1_alg».proof.Proof.Gen.KernelIdeal.Frame

set_option maxRecDepth 16384

noncomputable section

namespace Cert.Sage.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, the result array at the
    last boundary's contents of its buffer and the argument arrays as launched. -/
theorem run_result : θ_run defs (onTc (τ := τ) (main (F := F))) ⟨m, fun _ => 0, ρ⟩ (fun r => ∀ c : Dev nD,
      r.2.mem ((c.tc : Thread nD τ).loc main_v55) = W25 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v55 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c)⟩)

end Cert.Sage.Ker

end
-- ==== Proof.KernelHost.lean ====
/-
  The host operations around the kernel's launches, named.

  Between its launches the kernel's @main prepares each layer's inputs on the host: the edge lists get one
  self-loop per node appended (the node numbers 0 … 49999), the in-degree is the scatter-add of ones along the
  destinations, a layer's aggregated features are the scatter-add along the destinations of the feature rows gathered
  at the sources (a negative source counted from the end, as array indexing does), and every array that enters a
  launch is padded with 3248 zero rows up to 13 blocks of 4096. These are the printed operations, collected into
  definitions so that the fold through @main can be read back in a few words; nothing is computed here.
-/
import proofs.«115634_j10282151707715_1_alg».proof.Proof.Gen.KernelIdeal

noncomputable section

namespace Cert.Sage.Ker

open Idealize.ShloMosaic Cert.KernelIdeal Cert.KernelIdeal.Facts₀ Cert.KernelIdeal.Facts

variable {F : FTy → Type} [FloatOps F]

/-- An edge list with the self-loops appended. -/
def withLoops (v : (⟨S800000, .i32⟩ : BufTy).Contents (Elt F)) : (⟨S850000, .i32⟩ : BufTy).Contents (Elt F) :=
  concatenate S850000 0 [⟨S800000, v⟩, ⟨S50000, iotaInDim S50000 32 0⟩] concatenates_S800000_S50000_S850000_d0

/-- The in-degree of every node: ones scatter-added along the destinations into zeros. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- A layer's aggregated features: the rows of `h` gathered at the sources (a negative source wrapped once by the
    number of nodes), scatter-added along the destinations into zeros. -/
def aggregate (h : (⟨S50000x128, .f32⟩ : BufTy).Contents (Elt F)) (s d : (⟨S850000, .i32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (Host.gather gather_S50000x128_S850000x1_S850000x128_1_0_n_n_0_1_1128 h
      (broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)))

/-- The padding value: the integer zero converted. -/
def padValue : (⟨S_, .f32⟩ : BufTy).Contents (Elt F) := sitofp .f32 (constantI S_ 32 0#32)

/-- A feature matrix padded to 13 row blocks. -/
def padFeatures (x : (⟨S50000x128, .f32⟩ : BufTy).Contents (Elt F)) : (⟨S53248x128, .f32⟩ : BufTy).Contents (Elt F) :=
  pad S53248x128 ![0, 0] ![3248, 0] ![0, 0] x (padValue (F := F)) pads_S50000x128_S53248x128_032480_000 h_S_

/-- The degree column padded to 13 row blocks. -/
def padColumn (x : (⟨S50000x1, .f32⟩ : BufTy).Contents (Elt F)) : (⟨S53248x1, .f32⟩ : BufTy).Contents (Elt F) :=
  pad S53248x1 ![0, 0] ![3248, 0] ![0, 0] x (padValue (F := F)) pads_S50000x1_S53248x1_032480_000 h_S_

/-- The first 50000 rows of a hidden layer's padded result. -/
def firstRows (x : (⟨S53248x128, .f32⟩ : BufTy).Contents (Elt F)) : (⟨S50000x128, .f32⟩ : BufTy).Contents (Elt F) :=
  extractStridedSlice S50000x128 ![0, 0] x slices_S53248x128_S50000x128_0_0

/-- The first 50000 rows of the output layer's padded result. -/
def firstRowsOut (x : (⟨S53248x64, .f32⟩ : BufTy).Contents (Elt F)) : (⟨S50000x64, .f32⟩ : BufTy).Contents (Elt F) :=
  extractStridedSlice S50000x64 ![0, 0] x slices_S53248x64_S50000x64_0_0

end Cert.Sage.Ker

end
-- ==== Proof.KernelEntry0.lean ====
/-
  What the host leaves in the first launch's arrays.

  Before the first launch @main runs seven stretches of host operations. From ANY contents `U` of the buffers they
  leave, in the five arrays the launch reads: the aggregated input features, padded; the input features, padded; the
  degree column, padded; the first layer's weights, untouched; its bias as a one-row matrix. They also leave the two
  looped edge lists and the degree column in buffers the later layers read again, and touch no argument. Each fact is
  the fold of the operations read at one buffer.
-/
import proofs.«115634_j10282151707715_1_alg».proof.Proof.Gen.KernelIdeal.Launch
import proofs.«115634_j10282151707715_1_alg».proof.Proof.KernelHost
import Idealize.ShloMosaic.Lib.StableHlo.Run

set_option maxHeartbeats 4000000

noncomputable section

namespace Cert.Sage.Ker

open Idealize.ShloMosaic Idealize.ShloMosaic.StableHlo Cert.KernelIdeal Cert.KernelIdeal.Gen Cert.KernelIdeal.Facts₀ Cert.KernelIdeal.Facts

variable {F : FTy → Type} [FloatOps F] (U : Valuation τ sig (Elt F))

/-- Decides, operation by operation, that a stretch writes only references of the given list. -/
local macro "writes_within" : tactic =>
  `(tactic| (simp only [List.Forall]
             repeat' constructor
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
                        exact List.mem_map_of_mem (by decide))))

/-- The buffer contents after the seven stretches before the first launch, from contents `U`. -/
abbrev before0 : Valuation τ sig (Elt F) := StableHlo.after hostOps0_6 (StableHlo.after hostOps0_5 (StableHlo.after hostOps0_4 (StableHlo.after hostOps0_3 (StableHlo.after hostOps0_2 (StableHlo.after hostOps0_1 (StableHlo.after hostOps0 (U)))))))

/-- Every reference those stretches write. -/
abbrev hostWritten0 : List (Ref sig .tc) := [main_v0, main_v1, main_v2, main_cst, main_v3, main_cst_0, main_v4, main_v5, main_v6, main_v7, main_c, main_v8, main_v9, main_c_1, main_v10, main_v11, main_v12, main_v13, main_v14, main_cst_2, main_v15, main_v16, main_v17, main_c_3, main_call0_v0, main_v18, main_c_4, main_call1_v0, main_v19, main_c_5, main_call2_v0, main_v20, main_v21]

theorem writes_hostOps0 : (hostOps0 : List (HloOp τ sig (Elt F))).Forall fun op => op.writes ⊆ (hostWritten0.map (Proc.devRef (τ := τ) .tc)).toFinset := by writes_within
theorem writes_hostOps0_1 : (hostOps0_1 : List (HloOp τ sig (Elt F))).Forall fun op => op.writes ⊆ (hostWritten0.map (Proc.devRef (τ := τ) .tc)).toFinset := by writes_within
theorem writes_hostOps0_2 : (hostOps0_2 : List (HloOp τ sig (Elt F))).Forall fun op => op.writes ⊆ (hostWritten0.map (Proc.devRef (τ := τ) .tc)).toFinset := by writes_within
theorem writes_hostOps0_3 : (hostOps0_3 : List (HloOp τ sig (Elt F))).Forall fun op => op.writes ⊆ (hostWritten0.map (Proc.devRef (τ := τ) .tc)).toFinset := by writes_within
theorem writes_hostOps0_4 : (hostOps0_4 : List (HloOp τ sig (Elt F))).Forall fun op => op.writes ⊆ (hostWritten0.map (Proc.devRef (τ := τ) .tc)).toFinset := by writes_within
theorem writes_hostOps0_5 : (hostOps0_5 : List (HloOp τ sig (Elt F))).Forall fun op => op.writes ⊆ (hostWritten0.map (Proc.devRef (τ := τ) .tc)).toFinset := by writes_within
theorem writes_hostOps0_6 : (hostOps0_6 : List (HloOp τ sig (Elt F))).Forall fun op => op.writes ⊆ (hostWritten0.map (Proc.devRef (τ := τ) .tc)).toFinset := by writes_within

/-- A buffer none of them writes keeps its contents. -/
theorem before0_keep (r : Ref sig .tc) (h : r ∉ hostWritten0) : before0 U (Proc.devRef .tc r) = U (Proc.devRef .tc r) :=
  (after_of_writes_sub hostOps0_6 _ writes_hostOps0_6 h).trans ((after_of_writes_sub hostOps0_5 _ writes_hostOps0_5 h).trans ((after_of_writes_sub hostOps0_4 _ writes_hostOps0_4 h).trans ((after_of_writes_sub hostOps0_3 _ writes_hostOps0_3 h).trans ((after_of_writes_sub hostOps0_2 _ writes_hostOps0_2 h).trans ((after_of_writes_sub hostOps0_1 _ writes_hostOps0_1 h).trans ((after_of_writes_sub hostOps0 _ writes_hostOps0 h)))))))

/-- The aggregated input features, padded. -/
theorem before0_neigh : before0 U (Proc.devRef .tc main_v18)
    = padFeatures (aggregate (U (Proc.devRef .tc main_arg0)) (withLoops (U (Proc.devRef .tc main_arg1))) (withLoops (U (Proc.devRef .tc main_arg2)))) := by
  simp only [before0, hostOps0, hostOps0_1, hostOps0_2, hostOps0_3, hostOps0_4, hostOps0_5, hostOps0_6]
  after_results
  rfl

/-- The input features, padded. -/
theorem before0_self : before0 U (Proc.devRef .tc main_v19) = padFeatures (U (Proc.devRef .tc main_arg0)) := by
  simp only [before0, hostOps0, hostOps0_1, hostOps0_2, hostOps0_3, hostOps0_4, hostOps0_5, hostOps0_6]
  after_results
  rfl

/-- The degree as a column. -/
theorem before0_degree : before0 U (Proc.devRef .tc main_v7)
    = shapeCast S50000x1 (degree (withLoops (U (Proc.devRef .tc main_arg2)))) Facts₀.shapeCasts_S50000_S50000x1 := by
  simp only [before0, hostOps0, hostOps0_1, hostOps0_2, hostOps0_3, hostOps0_4, hostOps0_5, hostOps0_6]
  after_results
  rfl

/-- The degree column, padded. -/
theorem before0_degreePad : before0 U (Proc.devRef .tc main_v20)
    = padColumn (shapeCast S50000x1 (degree (withLoops (U (Proc.devRef .tc main_arg2)))) Facts₀.shapeCasts_S50000_S50000x1) := by
  simp only [before0, hostOps0, hostOps0_1, hostOps0_2, hostOps0_3, hostOps0_4, hostOps0_5, hostOps0_6]
  after_results
  rfl

/-- The first bias as a one-row matrix. -/
theorem before0_bias : before0 U (Proc.devRef .tc main_v21) = shapeCast S1x128 (U (Proc.devRef .tc main_arg4)) Facts₀.shapeCasts_S128_S1x128 := by
  simp only [before0, hostOps0, hostOps0_1, hostOps0_2, hostOps0_3, hostOps0_4, hostOps0_5, hostOps0_6]
  after_results
  rfl

/-- The looped sources. -/
theorem before0_src : before0 U (Proc.devRef .tc main_v1) = withLoops (U (Proc.devRef .tc main_arg1)) := by
  simp only [before0, hostOps0, hostOps0_1, hostOps0_2, hostOps0_3, hostOps0_4, hostOps0_5, hostOps0_6]
  after_results
  rfl

/-- The looped destinations. -/
theorem before0_dst : before0 U (Proc.devRef .tc main_v2) = withLoops (U (Proc.devRef .tc main_arg2)) := by
  simp only [before0, hostOps0, hostOps0_1, hostOps0_2, hostOps0_3, hostOps0_4, hostOps0_5, hostOps0_6]
  after_results
  rfl

end Cert.Sage.Ker

end
-- ==== Proof.KernelEntry1.lean ====
/-
  What the host leaves in the second launch's arrays.

  Between the previous launch and this one @main runs seven stretches of host operations. From ANY contents `U` of the
  buffers they leave, in the arrays the launch reads: the previous layer's result cut back to its 50000 rows,
  aggregated over the same looped edge lists and padded again; those rows themselves, padded; the degree column,
  padded; this layer's bias as a one-row matrix. They touch neither the edge lists, nor the degree column, nor an
  argument. Each fact is the fold of the operations read at one buffer.
-/
import proofs.«115634_j10282151707715_1_alg».proof.Proof.Gen.KernelIdeal.Launch
import proofs.«115634_j10282151707715_1_alg».proof.Proof.KernelHost
import Idealize.ShloMosaic.Lib.StableHlo.Run

set_option maxHeartbeats 4000000

noncomputable section

namespace Cert.Sage.Ker

open Idealize.ShloMosaic Idealize.ShloMosaic.StableHlo Cert.KernelIdeal Cert.KernelIdeal.Gen Cert.KernelIdeal.Facts₀ Cert.KernelIdeal.Facts

variable {F : FTy → Type} [FloatOps F] (U : Valuation τ sig (Elt F))

/-- Decides, operation by operation, that a stretch writes only references of the given list. -/
local macro "writes_within" : tactic =>
  `(tactic| (simp only [List.Forall]
             repeat' constructor
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
                        exact List.mem_map_of_mem (by decide))))

/-- The buffer contents after the seven stretches before the second launch, from contents `U`. -/
abbrev before1 : Valuation τ sig (Elt F) := StableHlo.after hostOps1_6 (StableHlo.after hostOps1_5 (StableHlo.after hostOps1_4 (StableHlo.after hostOps1_3 (StableHlo.after hostOps1_2 (StableHlo.after hostOps1_1 (StableHlo.after hostOps1 (U)))))))

/-- Every reference those stretches write. -/
abbrev hostWritten1 : List (Ref sig .tc) := [main_v23, main_c_6, main_v24, main_v25, main_c_7, main_v26, main_v27, main_v28, main_v29, main_v30, main_cst_8, main_v31, main_v32, main_v33, main_c_9, main_call3_v0, main_v34, main_c_10, main_call4_v0, main_v35, main_c_11, main_call5_v0, main_v36, main_v37]

theorem writes_hostOps1 : (hostOps1 : List (HloOp τ sig (Elt F))).Forall fun op => op.writes ⊆ (hostWritten1.map (Proc.devRef (τ := τ) .tc)).toFinset := by writes_within
theorem writes_hostOps1_1 : (hostOps1_1 : List (HloOp τ sig (Elt F))).Forall fun op => op.writes ⊆ (hostWritten1.map (Proc.devRef (τ := τ) .tc)).toFinset := by writes_within
theorem writes_hostOps1_2 : (hostOps1_2 : List (HloOp τ sig (Elt F))).Forall fun op => op.writes ⊆ (hostWritten1.map (Proc.devRef (τ := τ) .tc)).toFinset := by writes_within
theorem writes_hostOps1_3 : (hostOps1_3 : List (HloOp τ sig (Elt F))).Forall fun op => op.writes ⊆ (hostWritten1.map (Proc.devRef (τ := τ) .tc)).toFinset := by writes_within
theorem writes_hostOps1_4 : (hostOps1_4 : List (HloOp τ sig (Elt F))).Forall fun op => op.writes ⊆ (hostWritten1.map (Proc.devRef (τ := τ) .tc)).toFinset := by writes_within
theorem writes_hostOps1_5 : (hostOps1_5 : List (HloOp τ sig (Elt F))).Forall fun op => op.writes ⊆ (hostWritten1.map (Proc.devRef (τ := τ) .tc)).toFinset := by writes_within
theorem writes_hostOps1_6 : (hostOps1_6 : List (HloOp τ sig (Elt F))).Forall fun op => op.writes ⊆ (hostWritten1.map (Proc.devRef (τ := τ) .tc)).toFinset := by writes_within

/-- A buffer none of them writes keeps its contents. -/
theorem before1_keep (r : Ref sig .tc) (h : r ∉ hostWritten1) : before1 U (Proc.devRef .tc r) = U (Proc.devRef .tc r) :=
  (after_of_writes_sub hostOps1_6 _ writes_hostOps1_6 h).trans ((after_of_writes_sub hostOps1_5 _ writes_hostOps1_5 h).trans ((after_of_writes_sub hostOps1_4 _ writes_hostOps1_4 h).trans ((after_of_writes_sub hostOps1_3 _ writes_hostOps1_3 h).trans ((after_of_writes_sub hostOps1_2 _ writes_hostOps1_2 h).trans ((after_of_writes_sub hostOps1_1 _ writes_hostOps1_1 h).trans ((after_of_writes_sub hostOps1 _ writes_hostOps1 h)))))))

/-- The previous layer's rows, aggregated and padded. -/
theorem before1_neigh : before1 U (Proc.devRef .tc main_v34)
    = padFeatures (aggregate (firstRows (U (Proc.devRef .tc main_v22))) (U (Proc.devRef .tc main_v1)) (U (Proc.devRef .tc main_v2))) := by
  simp only [before1, hostOps1, hostOps1_1, hostOps1_2, hostOps1_3, hostOps1_4, hostOps1_5, hostOps1_6]
  after_results
  rfl

/-- The previous layer's rows, padded. -/
theorem before1_self : before1 U (Proc.devRef .tc main_v35) = padFeatures (firstRows (U (Proc.devRef .tc main_v22))) := by
  simp only [before1, hostOps1, hostOps1_1, hostOps1_2, hostOps1_3, hostOps1_4, hostOps1_5, hostOps1_6]
  after_results
  rfl

/-- The degree column, padded. -/
theorem before1_degreePad : before1 U (Proc.devRef .tc main_v36) = padColumn (U (Proc.devRef .tc main_v7)) := by
  simp only [before1, hostOps1, hostOps1_1, hostOps1_2, hostOps1_3, hostOps1_4, hostOps1_5, hostOps1_6]
  after_results
  rfl

/-- This layer's bias as a one-row matrix. -/
theorem before1_bias : before1 U (Proc.devRef .tc main_v37) = shapeCast S1x128 (U (Proc.devRef .tc main_arg6)) Facts₀.shapeCasts_S128_S1x128 := by
  simp only [before1, hostOps1, hostOps1_1, hostOps1_2, hostOps1_3, hostOps1_4, hostOps1_5, hostOps1_6]
  after_results
  rfl

end Cert.Sage.Ker

end
-- ==== Proof.KernelEntry2.lean ====
/-
  What the host leaves in the third launch's arrays.

  Between the previous launch and this one @main runs seven stretches of host operations. From ANY contents `U` of the
  buffers they leave, in the arrays the launch reads: the previous layer's result cut back to its 50000 rows,
  aggregated over the same looped edge lists and padded again; those rows themselves, padded; the degree column,
  padded; this layer's bias as a one-row matrix. They touch neither the edge lists, nor the degree column, nor an
  argument. Each fact is the fold of the operations read at one buffer.
-/
import proofs.«115634_j10282151707715_1_alg».proof.Proof.Gen.KernelIdeal.Launch
import proofs.«115634_j10282151707715_1_alg».proof.Proof.KernelHost
import Idealize.ShloMosaic.Lib.StableHlo.Run

set_option maxHeartbeats 4000000

noncomputable section

namespace Cert.Sage.Ker

open Idealize.ShloMosaic Idealize.ShloMosaic.StableHlo Cert.KernelIdeal Cert.KernelIdeal.Gen Cert.KernelIdeal.Facts₀ Cert.KernelIdeal.Facts

variable {F : FTy → Type} [FloatOps F] (U : Valuation τ sig (Elt F))

/-- Decides, operation by operation, that a stretch writes only references of the given list. -/
local macro "writes_within" : tactic =>
  `(tactic| (simp only [List.Forall]
             repeat' constructor
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
                        exact List.mem_map_of_mem (by decide))))

/-- The buffer contents after the seven stretches before the third launch, from contents `U`. -/
abbrev before2 : Valuation τ sig (Elt F) := StableHlo.after hostOps2_6 (StableHlo.after hostOps2_5 (StableHlo.after hostOps2_4 (StableHlo.after hostOps2_3 (StableHlo.after hostOps2_2 (StableHlo.after hostOps2_1 (StableHlo.after hostOps2 (U)))))))

/-- Every reference those stretches write. -/
abbrev hostWritten2 : List (Ref sig .tc) := [main_v39, main_c_12, main_v40, main_v41, main_c_13, main_v42, main_v43, main_v44, main_v45, main_v46, main_cst_14, main_v47, main_v48, main_v49, main_c_15, main_call6_v0, main_v50, main_c_16, main_call7_v0, main_v51, main_c_17, main_call8_v0, main_v52, main_v53]

theorem writes_hostOps2 : (hostOps2 : List (HloOp τ sig (Elt F))).Forall fun op => op.writes ⊆ (hostWritten2.map (Proc.devRef (τ := τ) .tc)).toFinset := by writes_within
theorem writes_hostOps2_1 : (hostOps2_1 : List (HloOp τ sig (Elt F))).Forall fun op => op.writes ⊆ (hostWritten2.map (Proc.devRef (τ := τ) .tc)).toFinset := by writes_within
theorem writes_hostOps2_2 : (hostOps2_2 : List (HloOp τ sig (Elt F))).Forall fun op => op.writes ⊆ (hostWritten2.map (Proc.devRef (τ := τ) .tc)).toFinset := by writes_within
theorem writes_hostOps2_3 : (hostOps2_3 : List (HloOp τ sig (Elt F))).Forall fun op => op.writes ⊆ (hostWritten2.map (Proc.devRef (τ := τ) .tc)).toFinset := by writes_within
theorem writes_hostOps2_4 : (hostOps2_4 : List (HloOp τ sig (Elt F))).Forall fun op => op.writes ⊆ (hostWritten2.map (Proc.devRef (τ := τ) .tc)).toFinset := by writes_within
theorem writes_hostOps2_5 : (hostOps2_5 : List (HloOp τ sig (Elt F))).Forall fun op => op.writes ⊆ (hostWritten2.map (Proc.devRef (τ := τ) .tc)).toFinset := by writes_within
theorem writes_hostOps2_6 : (hostOps2_6 : List (HloOp τ sig (Elt F))).Forall fun op => op.writes ⊆ (hostWritten2.map (Proc.devRef (τ := τ) .tc)).toFinset := by writes_within

/-- A buffer none of them writes keeps its contents. -/
theorem before2_keep (r : Ref sig .tc) (h : r ∉ hostWritten2) : before2 U (Proc.devRef .tc r) = U (Proc.devRef .tc r) :=
  (after_of_writes_sub hostOps2_6 _ writes_hostOps2_6 h).trans ((after_of_writes_sub hostOps2_5 _ writes_hostOps2_5 h).trans ((after_of_writes_sub hostOps2_4 _ writes_hostOps2_4 h).trans ((after_of_writes_sub hostOps2_3 _ writes_hostOps2_3 h).trans ((after_of_writes_sub hostOps2_2 _ writes_hostOps2_2 h).trans ((after_of_writes_sub hostOps2_1 _ writes_hostOps2_1 h).trans ((after_of_writes_sub hostOps2 _ writes_hostOps2 h)))))))

/-- The previous layer's rows, aggregated and padded. -/
theorem before2_neigh : before2 U (Proc.devRef .tc main_v50)
    = padFeatures (aggregate (firstRows (U (Proc.devRef .tc main_v38))) (U (Proc.devRef .tc main_v1)) (U (Proc.devRef .tc main_v2))) := by
  simp only [before2, hostOps2, hostOps2_1, hostOps2_2, hostOps2_3, hostOps2_4, hostOps2_5, hostOps2_6]
  after_results
  rfl

/-- The previous layer's rows, padded. -/
theorem before2_self : before2 U (Proc.devRef .tc main_v51) = padFeatures (firstRows (U (Proc.devRef .tc main_v38))) := by
  simp only [before2, hostOps2, hostOps2_1, hostOps2_2, hostOps2_3, hostOps2_4, hostOps2_5, hostOps2_6]
  after_results
  rfl

/-- The degree column, padded. -/
theorem before2_degreePad : before2 U (Proc.devRef .tc main_v52) = padColumn (U (Proc.devRef .tc main_v7)) := by
  simp only [before2, hostOps2, hostOps2_1, hostOps2_2, hostOps2_3, hostOps2_4, hostOps2_5, hostOps2_6]
  after_results
  rfl

/-- This layer's bias as a one-row matrix. -/
theorem before2_bias : before2 U (Proc.devRef .tc main_v53) = shapeCast S1x64 (U (Proc.devRef .tc main_arg8)) Facts₀.shapeCasts_S64_S1x64 := by
  simp only [before2, hostOps2, hostOps2_1, hostOps2_2, hostOps2_3, hostOps2_4, hostOps2_5, hostOps2_6]
  after_results
  rfl

/-- After the last launch one operation remains: the result is the first 50000 rows of the launch's output. -/
theorem after_last : StableHlo.after hostOps3 U (Proc.devRef .tc main_v55) = firstRowsOut (U (Proc.devRef .tc main_v54)) := by
  simp only [hostOps3]
  after_results
  rfl

end Cert.Sage.Ker

end
-- ==== Proof.SageSpec.lean ====
/-
  One layer of the graph convolution, entry by entry on the extended reals.

  For a node row `p` and an output feature `q`, with `neigh` the aggregated neighbour features, `x` the node's own
  features, `deg p` the node's in-degree, `W` the weight matrix stored feature-major (`W (q, k)`) and `b q` the bias:

      entry (p, q) = act ( Σ_k ((neigh (p, k) + x (p, k)) / (deg p + 1)) · W (q, k)  +  b q )

  where `act` is the maximum with zero for a hidden layer and the identity for the last one. The quotient is the
  extended reals' total division, the literals 1 and 0 are kept as the float words both programs print, and the sum
  runs over the input features in their natural order. The degree and the bias are taken as plain functions of the row
  and of the feature, so that a column `[N, 1]`, a row `[1, D]` and a vector all fit. Nothing here mentions a
  program: both programs are shown to compute this function, layer after layer, of the same aggregated inputs.
-/
import Idealize.ShloMosaic.PureOps.Ideal
import Idealize.ShloMosaic.Lib.ValueIdx

noncomputable section

namespace Cert.Sage

open Idealize.ShloMosaic Idealize.ShloMosaic.ValueIdx

/-- The activation after a layer: the maximum with the value of the zero word, or nothing. -/
def act (relu : Bool) (v : Ideal .f32) : Ideal .f32 :=
  if relu then max v (Ideal.ofBits .f32 0x00000000#32) else v

/-- Entry `(p, q)` of one layer: the node's mean over itself and its in-neighbours, contracted with row `q` of the
    weights, plus the bias, then the activation. -/
def entry (relu : Bool) {N K D : ℕ} (neigh x : FVec Ideal ⟨2, ![N, K]⟩ .f32) (deg : Fin N → Ideal .f32)
    (W : FVec Ideal ⟨2, ![D, K]⟩ .f32) (b : Fin D → Ideal .f32) (p : Fin N) (q : Fin D) : Ideal .f32 :=
  act relu ((∑ k : Fin K, Ideal.div (neigh (ix2 p k) + x (ix2 p k)) (deg p + Ideal.ofBits .f32 0x3F800000#32) * W (ix2 q k))
    + b q)

/-- One layer as a whole array. -/
def layer (relu : Bool) {N K D : ℕ} (neigh x : FVec Ideal ⟨2, ![N, K]⟩ .f32) (deg : Fin N → Ideal .f32)
    (W : FVec Ideal ⟨2, ![D, K]⟩ .f32) (b : Fin D → Ideal .f32) : FVec Ideal ⟨2, ![N, D]⟩ .f32 :=
  fun i => entry relu neigh x deg W b (i 0) (i 1)

theorem layer_apply (relu : Bool) {N K D : ℕ} (neigh x : FVec Ideal ⟨2, ![N, K]⟩ .f32) (deg : Fin N → Ideal .f32)
    (W : FVec Ideal ⟨2, ![D, K]⟩ .f32) (b : Fin D → Ideal .f32) (p : Fin N) (q : Fin D) :
    layer relu neigh x deg W b (ix2 p q) = entry relu neigh x deg W b p q := rfl

/-- The three layers, one after the other, over ONE aggregation `agg` (features of all nodes ↦ each node's sum over
    its in-edges, the same map at every layer since the graph does not change) and ONE degree `deg`: two hidden
    layers of width 128 with the activation, then the output layer of width 64 without it. -/
def net {N : ℕ} (agg : FVec Ideal ⟨2, ![N, 128]⟩ .f32 → FVec Ideal ⟨2, ![N, 128]⟩ .f32) (deg : Fin N → Ideal .f32)
    (x : FVec Ideal ⟨2, ![N, 128]⟩ .f32)
    (W0 : FVec Ideal ⟨2, ![128, 128]⟩ .f32) (b0 : Fin 128 → Ideal .f32)
    (W1 : FVec Ideal ⟨2, ![128, 128]⟩ .f32) (b1 : Fin 128 → Ideal .f32)
    (W2 : FVec Ideal ⟨2, ![64, 128]⟩ .f32) (b2 : Fin 64 → Ideal .f32) : FVec Ideal ⟨2, ![N, 64]⟩ .f32 :=
  layer false
    (agg (layer true (agg (layer true (agg x) x deg W0 b0)) (layer true (agg x) x deg W0 b0) deg W1 b1))
    (layer true (agg (layer true (agg x) x deg W0 b0)) (layer true (agg x) x deg W0 b0) deg W1 b1) deg W2 b2

end Cert.Sage

end
-- ==== Proof.LibPadRows.lean ====
/-
  A matrix padded with extra rows at the bottom, read at a row of the original matrix.

  `pad` with no padding in front, none between the entries and `hi` rows after the last one keeps every entry
  `(p, e)` of the operand where it was: the padding value is only met at rows past the operand's last. Stated for
  any sizes and any element type, at an index given by its two coordinates.
-/
import Idealize.ShloMosaic.Lib.ValueIdx
import Idealize.ShloMosaic.PureOps.ShapeOps

namespace Cert.Lib.PadRows

open Idealize.ShloMosaic Idealize.ShloMosaic.ValueIdx

/-- Rows appended below a matrix do not move its entries: the padded matrix at row `p'` (the same row number as
    `p`, in the longer range) and column `e` is the operand at `(p, e)`. -/
theorem padRows_apply {α : Type} {n m k hi : ℕ} (x : (⟨2, ![n, k]⟩ : Shape).Idx → α) {u : Shape} (v : u.Idx → α)
    (hp : (⟨2, ![n, k]⟩ : Shape).Pads ![0, 0] ![hi, 0] ![0, 0] ⟨2, ![m, k]⟩) (hu : 0 < u.numel)
    (p' : Fin m) (e : Fin k) (p : Fin n) (hpp : p'.val = p.val) :
    pad ⟨2, ![m, k]⟩ ![0, 0] ![hi, 0] ![0, 0] x v hp hu (ix2 p' e) = x (ix2 p e) := by
  unfold pad
  have hin : ∀ a : Fin (⟨2, ![n, k]⟩ : Shape).rank,
      (![0, 0] : Fin 2 → ℕ) a ≤ ((ix2 p' e) (a.cast hp.1)).val
        ∧ (((ix2 p' e) (a.cast hp.1)).val - (![0, 0] : Fin 2 → ℕ) a) % ((![0, 0] : Fin 2 → ℕ) a + 1) = 0
        ∧ (((ix2 p' e) (a.cast hp.1)).val - (![0, 0] : Fin 2 → ℕ) a) / ((![0, 0] : Fin 2 → ℕ) a + 1)
            < (⟨2, ![n, k]⟩ : Shape).size a := by
    intro a
    match a with
    | ⟨0, _⟩ => exact ⟨Nat.zero_le _, Nat.mod_one _, by show (p'.val - 0) / (0 + 1) < n; rw [hpp]; simpa using p.isLt⟩
    | ⟨1, _⟩ => exact ⟨Nat.zero_le _, Nat.mod_one _, by show (e.val - 0) / (0 + 1) < k; simpa using e.isLt⟩
  rw [dif_pos hin]
  refine congrArg x (funext fun a => Fin.ext ?_)
  match a with
  | ⟨0, _⟩ => show (p'.val - 0) / (0 + 1) = p.val; rw [hpp]; simp
  | ⟨1, _⟩ => show (e.val - 0) / (0 + 1) = e.val; simp

/-- The same with the longer row written as the original row's number: the form a rewrite can use from left to
    right. -/
theorem padRows_apply_mk {α : Type} {n m k hi : ℕ} (x : (⟨2, ![n, k]⟩ : Shape).Idx → α) {u : Shape} (v : u.Idx → α)
    (hp : (⟨2, ![n, k]⟩ : Shape).Pads ![0, 0] ![hi, 0] ![0, 0] ⟨2, ![m, k]⟩) (hu : 0 < u.numel)
    (p : Fin n) (e : Fin k) (hlt : p.val < m) :
    pad ⟨2, ![m, k]⟩ ![0, 0] ![hi, 0] ![0, 0] x v hp hu (ix2 ⟨p.val, hlt⟩ e) = x (ix2 p e) :=
  padRows_apply x v hp hu ⟨p.val, hlt⟩ e p rfl

end Cert.Lib.PadRows
-- ==== Proof.PaddedLayer.lean ====
/-
  Padding rows and cutting them off again does not change a layer.

  The kernel runs each dense layer on inputs padded with zero rows up to a whole number of row blocks and then keeps
  the first rows of the result. An entry `(p, q)` of a layer depends on row `p` of the aggregated features, of the
  node features and of the degree only — the contraction runs along the features, never across rows — so for a row of
  the original range the padded layer reads exactly what the unpadded layer reads, whatever the padding value.
-/
import proofs.«115634_j10282151707715_1_alg».proof.Proof.SageSpec
import proofs.«115634_j10282151707715_1_alg».proof.Proof.LibPadRows
import Idealize.ShloMosaic.Lib.ValueLayout

noncomputable section

namespace Cert.Sage

open Idealize.ShloMosaic Idealize.ShloMosaic.ValueIdx Cert.Lib.PadRows

/-- The first `N` rows of the layer of row-padded inputs are the layer of the inputs. The degree is held as a
    one-column matrix, padded like the features. -/
theorem slice_layer_padded (relu : Bool) {N M K D hi : ℕ}
    (A X : FVec Ideal ⟨2, ![N, K]⟩ .f32) (Dg : FVec Ideal ⟨2, ![N, 1]⟩ .f32)
    {u1 u2 u3 : Shape} (z1 : u1.Idx → Ideal .f32) (z2 : u2.Idx → Ideal .f32) (z3 : u3.Idx → Ideal .f32)
    (W : FVec Ideal ⟨2, ![D, K]⟩ .f32) (b : Fin D → Ideal .f32)
    (hA : (⟨2, ![N, K]⟩ : Shape).Pads ![0, 0] ![hi, 0] ![0, 0] ⟨2, ![M, K]⟩)
    (hX : (⟨2, ![N, K]⟩ : Shape).Pads ![0, 0] ![hi, 0] ![0, 0] ⟨2, ![M, K]⟩)
    (hD : (⟨2, ![N, 1]⟩ : Shape).Pads ![0, 0] ![hi, 0] ![0, 0] ⟨2, ![M, 1]⟩)
    (h1 : 0 < u1.numel) (h2 : 0 < u2.numel) (h3 : 0 < u3.numel)
    (hs : (⟨2, ![M, D]⟩ : Shape).Slices ![0, 0] ⟨2, ![N, D]⟩) :
    extractStridedSlice ⟨2, ![N, D]⟩ ![0, 0]
        (layer relu (pad ⟨2, ![M, K]⟩ ![0, 0] ![hi, 0] ![0, 0] A z1 hA h1) (pad ⟨2, ![M, K]⟩ ![0, 0] ![hi, 0] ![0, 0] X z2 hX h2)
          (fun p => pad ⟨2, ![M, 1]⟩ ![0, 0] ![hi, 0] ![0, 0] Dg z3 hD h3 (ix2 p 0)) W b) hs
      = layer relu A X (fun p => Dg (ix2 p 0)) W b := by
  funext i
  obtain ⟨p, q, rfl⟩ : ∃ (p : Fin N) (q : Fin D), i = ix2 p q := ⟨i 0, i 1, eq_ix2 i⟩
  have hNM : N ≤ M := by
    have := hs.2 (0 : Fin 2)
    simpa using this
  have hlt : p.val < M := lt_of_lt_of_le p.isLt hNM
  rw [slice2_axis0_apply 0 _ hs p q ⟨p.val, hlt⟩ (by simp), layer_apply, layer_apply]
  unfold entry
  simp only [padRows_apply_mk]

end Cert.Sage

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.KernelResult.lean ====
/-
  The kernel's result, read back layer by layer.

  The last boundary's contents of the result buffer are the first 50000 rows of what the third launch wrote; a launch
  writes one layer of the arrays it finds; those arrays are the padded host-side aggregation, the padded features of
  the previous layer, the padded degree column, the weights and the bias row; and a layer of row-padded inputs cut
  back to its first rows is the layer of the inputs. Unwinding the three launches from the last boundary down to the
  launch memory, the result is the three-layer composite of the specification over ONE aggregation map (gather at the
  looped sources, scatter-add along the looped destinations) and ONE degree, applied to the argument arrays.
-/
import proofs.«115634_j10282151707715_1_alg».proof.Proof.Gen.KernelIdeal.Frame
import proofs.«115634_j10282151707715_1_alg».proof.Proof.KernelEntry0
import proofs.«115634_j10282151707715_1_alg».proof.Proof.KernelEntry1
import proofs.«115634_j10282151707715_1_alg».proof.Proof.KernelEntry2
import proofs.«115634_j10282151707715_1_alg».proof.Proof.PaddedLayer
import proofs.«115634_j10282151707715_1_alg».proof.Proof.LibHostMatrix
import Idealize.ShloMosaic.PureOps.Ideal

set_option maxRecDepth 16384

noncomputable section

namespace Cert.Sage.Ker

open Idealize.ShloMosaic Idealize.ShloMosaic.ValueIdx Idealize.ShloMosaic.TcCoe Idealize.SL.Sem
open Cert.KernelIdeal Cert.KernelIdeal.Gen Cert.Lib.HostMatrix

/-- A vector reshaped to a one-column matrix: entry (p, 0) is the vector's entry p. -/
theorem colOfVec_apply {α : Type} {a : Nat} (v : (⟨1, ![a]⟩ : Shape).Idx → α)
    (h : (⟨1, ![a]⟩ : Shape).ShapeCasts ⟨2, ![a, 1]⟩) (p : Fin a) :
    shapeCast (⟨2, ![a, 1]⟩ : Shape) v h (ix2 p (0 : Fin 1)) = v (ix1 p) :=
  shapeCast_apply v h (ix2 p (0 : Fin 1)) (ix1 p) (by
    rw [Shape.rowMajor_val_two, Shape.rowMajor_val_one]; show p.val = p.val * 1 + 0; omega)

variable (m : (ℓ : Loc nD τ sig) → Buf (Elt Ideal) ℓ) (ρ : Dev nD → PrngReg) (c : Dev nD)

/-- The input features, the looped edge lists and the degree column, as the launch memory holds them. -/
abbrev feat : (⟨S50000x128, .f32⟩ : BufTy).Contents (Elt Ideal) := m ((c.tc : Thread nD τ).loc main_arg0)
abbrev srcL : (⟨S850000, .i32⟩ : BufTy).Contents (Elt Ideal) := withLoops (m ((c.tc : Thread nD τ).loc main_arg1))
abbrev dstL : (⟨S850000, .i32⟩ : BufTy).Contents (Elt Ideal) := withLoops (m ((c.tc : Thread nD τ).loc main_arg2))
abbrev degCol : (⟨S50000x1, .f32⟩ : BufTy).Contents (Elt Ideal) :=
  shapeCast S50000x1 (degree (dstL m c)) Facts₀.shapeCasts_S50000_S50000x1

/-- The first hidden layer, the second, and the output layer, over the launch memory. -/
def hidden1 : FVec Ideal ⟨2, ![50000, 128]⟩ .f32 :=
  layer true (N := 50000) (K := 128) (D := 128) (aggregate (feat m c) (srcL m c) (dstL m c)) (feat m c)
    (fun p => degCol m c (ix2 p 0)) (m ((c.tc : Thread nD τ).loc main_arg3))
    (fun q => shapeCast S1x128 (m ((c.tc : Thread nD τ).loc main_arg4)) Facts₀.shapeCasts_S128_S1x128 (ix2 0 q))
def hidden2 : FVec Ideal ⟨2, ![50000, 128]⟩ .f32 :=
  layer true (N := 50000) (K := 128) (D := 128) (aggregate (hidden1 m c) (srcL m c) (dstL m c)) (hidden1 m c)
    (fun p => degCol m c (ix2 p 0)) (m ((c.tc : Thread nD τ).loc main_arg5))
    (fun q => shapeCast S1x128 (m ((c.tc : Thread nD τ).loc main_arg6)) Facts₀.shapeCasts_S128_S1x128 (ix2 0 q))
def output : FVec Ideal ⟨2, ![50000, 64]⟩ .f32 :=
  layer false (N := 50000) (K := 128) (D := 64) (aggregate (hidden2 m c) (srcL m c) (dstL m c)) (hidden2 m c)
    (fun p => degCol m c (ix2 p 0)) (m ((c.tc : Thread nD τ).loc main_arg7))
    (fun q => shapeCast S1x64 (m ((c.tc : Thread nD τ).loc main_arg8)) Facts₀.shapeCasts_S64_S1x64 (ix2 0 q))

section Launches

/- What each launch writes, as ONE function of the arrays it finds (proved in the modules of the three launches). -/
variable
  (H0 : ∀ (V : (c : Dev nD) → (b : Ref sig .tc) → Buf (Elt Ideal) ((c : Thread nD τ).loc b)) (c : Dev nD),
    (dat0 (F := Ideal) V c).arrAt 5 cfg0.N = layer true (N := 53248) (K := 128) (D := 128)
      (V c main_v18) (V c main_v19) (fun p => V c main_v20 (ix2 p 0)) (V c main_arg3) (fun q => V c main_v21 (ix2 0 q)))
  (H1 : ∀ (V : (c : Dev nD) → (b : Ref sig .tc) → Buf (Elt Ideal) ((c : Thread nD τ).loc b)) (c : Dev nD),
    (dat1 (F := Ideal) V c).arrAt 5 cfg1.N = layer true (N := 53248) (K := 128) (D := 128)
      (V c main_v34) (V c main_v35) (fun p => V c main_v36 (ix2 p 0)) (V c main_arg5) (fun q => V c main_v37 (ix2 0 q)))
  (H2 : ∀ (V : (c : Dev nD) → (b : Ref sig .tc) → Buf (Elt Ideal) ((c : Thread nD τ).loc b)) (c : Dev nD),
    (dat2 (F := Ideal) V c).arrAt 5 cfg2.N = layer false (N := 53248) (K := 128) (D := 64)
      (V c main_v50) (V c main_v51) (fun p => V c main_v52 (ix2 p 0)) (V c main_arg7) (fun q => V c main_v53 (ix2 0 q)))

include H0 in
/-- After the first launch: the first 50000 rows of its output are the first hidden layer. -/
theorem rows_after0 : firstRows (W8 m ρ c (Proc.devRef .tc main_v22)) = hidden1 m c := by
  have hreg := (W8_arr m ρ c 5).trans (H0 (V7 m ρ) c)
  have a0 : V7 m ρ c main_v18 = padFeatures (aggregate (feat m c) (srcL m c) (dstL m c)) := before0_neigh (W0 m ρ c)
  have a1 : V7 m ρ c main_v19 = padFeatures (feat m c) := before0_self (W0 m ρ c)
  have a2 : V7 m ρ c main_v20 = padColumn (degCol m c) := before0_degreePad (W0 m ρ c)
  have a3 : V7 m ρ c main_arg3 = m ((c.tc : Thread nD τ).loc main_arg3) := before0_keep (W0 m ρ c) main_arg3 (by decide)
  have a4 : V7 m ρ c main_v21 = shapeCast S1x128 (m ((c.tc : Thread nD τ).loc main_arg4)) Facts₀.shapeCasts_S128_S1x128 :=
    before0_bias (W0 m ρ c)
  rw [a0, a1, a2, a3, a4] at hreg
  rw [show W8 m ρ c (Proc.devRef .tc main_v22) = _ from hreg]
  exact slice_layer_padded true _ _ (degCol m c) _ _ _ _ _ _ _ _ _ _ _ _

/-- What the first launch leaves untouched: the looped edge lists, the degree column and the later layers' arguments
    still hold what the host put there. -/
theorem src_after0 : W8 m ρ c (Proc.devRef .tc main_v1) = srcL m c :=
  (W8_of_ne m ρ c main_v1 (by decide)).trans (before0_src (W0 m ρ c))
theorem dst_after0 : W8 m ρ c (Proc.devRef .tc main_v2) = dstL m c :=
  (W8_of_ne m ρ c main_v2 (by decide)).trans (before0_dst (W0 m ρ c))
theorem deg_after0 : W8 m ρ c (Proc.devRef .tc main_v7) = degCol m c :=
  (W8_of_ne m ρ c main_v7 (by decide)).trans (before0_degree (W0 m ρ c))
theorem arg5_after0 : W8 m ρ c (Proc.devRef .tc main_arg5) = m ((c.tc : Thread nD τ).loc main_arg5) :=
  (W8_of_ne m ρ c main_arg5 (by decide)).trans (before0_keep (W0 m ρ c) main_arg5 (by decide))
theorem arg6_after0 : W8 m ρ c (Proc.devRef .tc main_arg6) = m ((c.tc : Thread nD τ).loc main_arg6) :=
  (W8_of_ne m ρ c main_arg6 (by decide)).trans (before0_keep (W0 m ρ c) main_arg6 (by decide))
theorem arg7_after0 : W8 m ρ c (Proc.devRef .tc main_arg7) = m ((c.tc : Thread nD τ).loc main_arg7) :=
  (W8_of_ne m ρ c main_arg7 (by decide)).trans (before0_keep (W0 m ρ c) main_arg7 (by decide))
theorem arg8_after0 : W8 m ρ c (Proc.devRef .tc main_arg8) = m ((c.tc : Thread nD τ).loc main_arg8) :=
  (W8_of_ne m ρ c main_arg8 (by decide)).trans (before0_keep (W0 m ρ c) main_arg8 (by decide))

/-- The same after the second launch. -/
theorem src_after1 : W16 m ρ c (Proc.devRef .tc main_v1) = srcL m c :=
  (W16_of_ne m ρ c main_v1 (by decide)).trans ((before1_keep (W8 m ρ c) main_v1 (by decide)).trans (src_after0 m ρ c))
theorem dst_after1 : W16 m ρ c (Proc.devRef .tc main_v2) = dstL m c :=
  (W16_of_ne m ρ c main_v2 (by decide)).trans ((before1_keep (W8 m ρ c) main_v2 (by decide)).trans (dst_after0 m ρ c))
theorem deg_after1 : W16 m ρ c (Proc.devRef .tc main_v7) = degCol m c :=
  (W16_of_ne m ρ c main_v7 (by decide)).trans ((before1_keep (W8 m ρ c) main_v7 (by decide)).trans (deg_after0 m ρ c))
theorem arg7_after1 : W16 m ρ c (Proc.devRef .tc main_arg7) = m ((c.tc : Thread nD τ).loc main_arg7) :=
  (W16_of_ne m ρ c main_arg7 (by decide)).trans ((before1_keep (W8 m ρ c) main_arg7 (by decide)).trans (arg7_after0 m ρ c))
theorem arg8_after1 : W16 m ρ c (Proc.devRef .tc main_arg8) = m ((c.tc : Thread nD τ).loc main_arg8) :=
  (W16_of_ne m ρ c main_arg8 (by decide)).trans ((before1_keep (W8 m ρ c) main_arg8 (by decide)).trans (arg8_after0 m ρ c))

include H0 H1 in
/-- After the second launch: the first 50000 rows of its output are the second hidden layer. -/
theorem rows_after1 : firstRows (W16 m ρ c (Proc.devRef .tc main_v38)) = hidden2 m c := by
  have hreg := (W16_arr m ρ c 5).trans (H1 (V15 m ρ) c)
  have r1 := rows_after0 m ρ c H0
  have a0 : V15 m ρ c main_v34 = padFeatures (aggregate (hidden1 m c) (srcL m c) (dstL m c)) :=
    (before1_neigh (W8 m ρ c)).trans (by rw [r1, src_after0 m ρ c, dst_after0 m ρ c])
  have a1 : V15 m ρ c main_v35 = padFeatures (hidden1 m c) := (before1_self (W8 m ρ c)).trans (by rw [r1])
  have a2 : V15 m ρ c main_v36 = padColumn (degCol m c) := (before1_degreePad (W8 m ρ c)).trans (by rw [deg_after0 m ρ c])
  have a3 : V15 m ρ c main_arg5 = m ((c.tc : Thread nD τ).loc main_arg5) :=
    (before1_keep (W8 m ρ c) main_arg5 (by decide)).trans (arg5_after0 m ρ c)
  have a4 : V15 m ρ c main_v37 = shapeCast S1x128 (m ((c.tc : Thread nD τ).loc main_arg6)) Facts₀.shapeCasts_S128_S1x128 :=
    (before1_bias (W8 m ρ c)).trans (by rw [arg6_after0 m ρ c])
  rw [a0, a1, a2, a3, a4] at hreg
  rw [show W16 m ρ c (Proc.devRef .tc main_v38) = _ from hreg]
  exact slice_layer_padded true _ _ (degCol m c) _ _ _ _ _ _ _ _ _ _ _ _

include H0 H1 H2 in
/-- The last boundary's contents of the result buffer are the output layer. -/
theorem result_rows : W25 m ρ c (Proc.devRef .tc main_v55) = output m c := by
  have hreg := (W24_arr m ρ c 5).trans (H2 (V23 m ρ) c)
  have r2 := rows_after1 m ρ c H0 H1
  have a0 : V23 m ρ c main_v50 = padFeatures (aggregate (hidden2 m c) (srcL m c) (dstL m c)) :=
    (before2_neigh (W16 m ρ c)).trans (by rw [r2, src_after1 m ρ c, dst_after1 m ρ c])
  have a1 : V23 m ρ c main_v51 = padFeatures (hidden2 m c) := (before2_self (W16 m ρ c)).trans (by rw [r2])
  have a2 : V23 m ρ c main_v52 = padColumn (degCol m c) := (before2_degreePad (W16 m ρ c)).trans (by rw [deg_after1 m ρ c])
  have a3 : V23 m ρ c main_arg7 = m ((c.tc : Thread nD τ).loc main_arg7) :=
    (before2_keep (W16 m ρ c) main_arg7 (by decide)).trans (arg7_after1 m ρ c)
  have a4 : V23 m ρ c main_v53 = shapeCast S1x64 (m ((c.tc : Thread nD τ).loc main_arg8)) Facts₀.shapeCasts_S64_S1x64 :=
    (before2_bias (W16 m ρ c)).trans (by rw [arg8_after1 m ρ c])
  rw [a0, a1, a2, a3, a4] at hreg
  have hlast : W25 m ρ c (Proc.devRef .tc main_v55) = firstRowsOut (W24 m ρ c (Proc.devRef .tc main_v54)) :=
    after_last (W24 m ρ c)
  rw [hlast, show W24 m ρ c (Proc.devRef .tc main_v54) = _ from hreg]
  exact slice_layer_padded false _ _ (degCol m c) _ _ _ _ _ _ _ _ _ _ _ _

include H0 H1 H2 in
/-- The kernel's result is the specification's three layers over the host-side aggregation and degree of the looped
    edge lists: the degree column read at its one column is the degree, a bias row read at its one row the bias. -/
theorem result_eq : W25 m ρ c (Proc.devRef .tc main_v55)
    = Cert.Sage.net (N := 50000) (fun h => aggregate h (srcL m c) (dstL m c)) (fun p => degree (dstL m c) (ix1 p))
        (feat m c) (m ((c.tc : Thread nD τ).loc main_arg3)) (fun q => m ((c.tc : Thread nD τ).loc main_arg4) (ix1 q))
        (m ((c.tc : Thread nD τ).loc main_arg5)) (fun q => m ((c.tc : Thread nD τ).loc main_arg6) (ix1 q))
        (m ((c.tc : Thread nD τ).loc main_arg7)) (fun q => m ((c.tc : Thread nD τ).loc main_arg8) (ix1 q)) := by
  rw [result_rows m ρ c H0 H1 H2]
  unfold output hidden2 hidden1 Cert.Sage.net
  simp only [degCol, colOfVec_apply, rowOfVec_apply]

end Launches

end Cert.Sage.Ker

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KernelBlock.lean ====
/-
  What the dense part of one layer leaves in its output block, entry by entry.

  The body of each of the three dense calls reads a block of aggregated neighbour features, the matching block of
  the nodes' own features, the matching column of in-degrees, the whole weight matrix and the whole bias row, and
  stores ONE value: the two feature blocks added, divided row by row by the degree plus one, contracted with the
  transposed weights into a zero accumulator, the bias row added to every row and — in the two hidden layers — the
  maximum with zero taken.  Read at row p and feature q of the block this is the layer's entry (p, q) of the
  specification, with the block's own rows in place of the array's: on the extended reals the change of float
  format before the contraction is the identity, the contraction into zero is the plain finite sum over the input
  features, and a column (a row) broadcast along the other axis reads the column's (the row's) one entry.
-/
import proofs.«115634_j10282151707715_1_alg».proof.Proof.Gen.KernelIdeal.Frame
import proofs.«115634_j10282151707715_1_alg».proof.Proof.SageSpec
import proofs.«115634_j10282151707715_1_alg».proof.Proof.LibPlainDot
import proofs.«115634_j10282151707715_1_alg».proof.Proof.LibRank2Layout
import proofs.«115634_j10282151707715_1_alg».proof.Proof.LibHostMatrix
import Idealize.ShloMosaic.Lib.ValueIdx
import Idealize.ShloMosaic.Lib.Pipeline.Value
import Idealize.ShloMosaic.PureOps.Ideal.Laws

noncomputable section

open scoped BigOperators

namespace Cert.Sage.Ker

open Idealize.ShloMosaic Idealize.ShloMosaic.ValueIdx Cert.KernelIdeal Cert.KernelIdeal.Gen

/-- The two zero offsets of a whole-block access, as the constant zero function. -/
theorem zero_offsets : (![0, 0] : Fin 2 → Nat) = fun _ => 0 := funext fun a => by fin_cases a <;> rfl

/-- THE VALUE BEFORE THE ACTIVATION, for any block height A, input width K and output width B: the mean of a node
    over itself and its in-neighbours (sum of the two feature rows over degree plus one), contracted with row q of
    the weights, plus the bias at q. -/
theorem preactivation_apply {A K B : Nat} (x0 x1 : FVec Ideal ⟨2, ![A, K]⟩ .f32) (x2 : FVec Ideal ⟨2, ![A, 1]⟩ .f32)
    (x3 : FVec Ideal ⟨2, ![B, K]⟩ .f32) (x4 : FVec Ideal ⟨2, ![1, B]⟩ .f32)
    (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (h0 : (⟨2, ![A, K]⟩ : Shape).ShapeCasts ⟨2, ![A, K]⟩) (h2 : (⟨2, ![A, 1]⟩ : Shape).ShapeCasts ⟨2, ![A, 1]⟩)
    (h4 : (⟨2, ![1, B]⟩ : Shape).ShapeCasts ⟨2, ![1, B]⟩)
    (hb2 : (⟨2, ![A, 1]⟩ : Shape).Broadcasts ⟨2, ![A, K]⟩) (hb4 : (⟨2, ![1, B]⟩ : Shape).Broadcasts ⟨2, ![A, B]⟩)
    (ht : (⟨2, ![B, K]⟩ : Shape).Transposes [(1 : Fin 2), 0] ⟨2, ![K, B]⟩) (hlt : FTy.bits .bf16 < FTy.bits .f32)
    (p : Fin A) (q : Fin B) :
    addf
        (matmul d none
          (truncf .bf16
            (divf (addf (shapeCast ⟨2, ![A, K]⟩ x0 h0) (shapeCast ⟨2, ![A, K]⟩ x1 h0))
              (broadcastTo ⟨2, ![A, K]⟩
                (addf (shapeCast ⟨2, ![A, 1]⟩ x2 h2) (broadcast ⟨2, ![A, 1]⟩ (FloatOps.ofBits (F := Ideal) .f32 0x3F800000#32))) hb2))
            hlt)
          (transpose ⟨2, ![K, B]⟩ [1, 0] (truncf .bf16 x3 hlt) ht)
          (constant ⟨2, ![A, B]⟩ .f32 0x00000000#32))
        (broadcastTo ⟨2, ![A, B]⟩ (shapeCast ⟨2, ![1, B]⟩ x4 h4) hb4) (ix2 p q)
      = (∑ k : Fin K, Ideal.div (x0 (ix2 p k) + x1 (ix2 p k)) (x2 (ix2 p 0) + Ideal.ofBits .f32 0x3F800000#32) * x3 (ix2 q k))
        + x4 (ix2 0 q) := by
  unfold matmul
  rw [addf_apply, Cert.Bridge.matmul_zero_plain d hlc hrc hln hrn hlb hrb, Rank2.bcastRow_apply]
  simp only [shapeCast_self]
  refine congrArg (· + x4 (ix2 0 q)) (Finset.sum_congr rfl fun k _ => ?_)
  rw [truncf_apply, divf_apply, addf_apply, Rank2.bcastCol_apply, addf_apply, broadcast_apply,
    Cert.Lib.HostMatrix.transposed_apply, truncf_apply]
  rfl

/-- AN ENTRY DEPENDS ON ITS NODE'S ROW ONLY: two settings of the arrays, of any heights, that agree on row p of the one
    and row P of the other — the two feature rows and the degree —, on row q of the weights and on the bias at q give
    the same entry there. This is what lets a block's entry be read as the whole array's. -/
theorem entry_of_rows (relu : Bool) {N N' K D : ℕ} (x0 x1 : FVec Ideal ⟨2, ![N, K]⟩ .f32) (g : Fin N → Ideal .f32)
    (a0 a1 : FVec Ideal ⟨2, ![N', K]⟩ .f32) (g' : Fin N' → Ideal .f32) (W W' : FVec Ideal ⟨2, ![D, K]⟩ .f32)
    (b b' : Fin D → Ideal .f32) (p : Fin N) (P : Fin N') (q : Fin D)
    (h0 : ∀ k, x0 (ix2 p k) = a0 (ix2 P k)) (h1 : ∀ k, x1 (ix2 p k) = a1 (ix2 P k)) (h2 : g p = g' P)
    (h3 : ∀ k, W (ix2 q k) = W' (ix2 q k)) (h4 : b q = b' q) :
    Cert.Sage.entry relu x0 x1 g W b p q = Cert.Sage.entry relu a0 a1 g' W' b' P q := by
  unfold Cert.Sage.entry
  rw [h2, h4]
  exact congrArg (fun s => Cert.Sage.act relu (s + b' q)) (Finset.sum_congr rfl fun k _ => by rw [h0 k, h1 k, h3 k])

/-- A HIDDEN LAYER'S BLOCK (the first dense call): entry (p, q) of what the body stores is the specification's entry
    with the activation, of the blocks it read. -/
theorem hidden_block (x0 x1 : Vec Ideal S4096x128 .f32) (x2 : Vec Ideal S4096x1 .f32) (x3 : Vec Ideal S128x128 .f32)
    (x4 : Vec Ideal S1x128 .f32) (p : Fin 4096) (q : Fin 128) :
    out0_5 (F := Ideal) x0 x1 x2 x3 x4 (ix2 p q)
      = Cert.Sage.entry true x0 x1 (fun r => x2 (ix2 r 0)) x3 (fun s => x4 (ix2 0 s)) p q := by
  unfold out0_5
  rw [View.canon_unit_zero zero_offsets]
  simp only [View.ld_unit_zero (S := S4096x128) zero_offsets, View.ld_unit_zero (S := S4096x1) zero_offsets,
    View.ld_unit_zero (S := S128x128) zero_offsets, View.ld_unit_zero (S := S1x128) zero_offsets]
  unfold k0_pay1
  rw [maximumf_apply, broadcast_apply]
  unfold Cert.Sage.entry Cert.Sage.act
  rw [if_pos rfl]
  exact congrArg (max · (Ideal.ofBits .f32 0x00000000#32))
    (preactivation_apply x0 x1 x2 x3 x4 dot_S4096x128_S128x128_S4096x128_1_0_0_1_n_n rfl rfl rfl rfl rfl rfl _ _ _ _ _ _ _ p q)

/-- The second dense call stores the same term of its blocks as the first. -/
theorem second_eq_first (x0 x1 : Vec Ideal S4096x128 .f32) (x2 : Vec Ideal S4096x1 .f32) (x3 : Vec Ideal S128x128 .f32)
    (x4 : Vec Ideal S1x128 .f32) : out1_5 (F := Ideal) x0 x1 x2 x3 x4 = out0_5 (F := Ideal) x0 x1 x2 x3 x4 := rfl

/-- A HIDDEN LAYER'S BLOCK (the second dense call). -/
theorem hidden_block_second (x0 x1 : Vec Ideal S4096x128 .f32) (x2 : Vec Ideal S4096x1 .f32) (x3 : Vec Ideal S128x128 .f32)
    (x4 : Vec Ideal S1x128 .f32) (p : Fin 4096) (q : Fin 128) :
    out1_5 (F := Ideal) x0 x1 x2 x3 x4 (ix2 p q)
      = Cert.Sage.entry true x0 x1 (fun r => x2 (ix2 r 0)) x3 (fun s => x4 (ix2 0 s)) p q :=
  (congrFun (second_eq_first x0 x1 x2 x3 x4) (ix2 p q)).trans (hidden_block x0 x1 x2 x3 x4 p q)

/-- THE OUTPUT LAYER'S BLOCK (the third dense call, 64 output features, no activation). -/
theorem output_block (x0 x1 : Vec Ideal S4096x128 .f32) (x2 : Vec Ideal S4096x1 .f32) (x3 : Vec Ideal S64x128 .f32)
    (x4 : Vec Ideal S1x64 .f32) (p : Fin 4096) (q : Fin 64) :
    out2_5 (F := Ideal) x0 x1 x2 x3 x4 (ix2 p q)
      = Cert.Sage.entry false x0 x1 (fun r => x2 (ix2 r 0)) x3 (fun s => x4 (ix2 0 s)) p q := by
  unfold out2_5
  rw [View.canon_unit_zero zero_offsets]
  simp only [View.ld_unit_zero (S := S4096x128) zero_offsets, View.ld_unit_zero (S := S4096x1) zero_offsets,
    View.ld_unit_zero (S := S64x128) zero_offsets, View.ld_unit_zero (S := S1x64) zero_offsets]
  unfold k2_pay1
  unfold Cert.Sage.entry Cert.Sage.act
  rw [if_neg Bool.false_ne_true]
  exact preactivation_apply x0 x1 x2 x3 x4 dot_S4096x128_S128x64_S4096x64_1_0_0_1_n_n rfl rfl rfl rfl rfl rfl _ _ _ _ _ _ _ p q

end Cert.Sage.Ker

end
-- ==== Proof.KernelRegion0.lean ====
/-
  The first dense call, read as one whole-array function.

  The call walks the 53248 padded node rows in 13 blocks of 4096 rows. At point t it is handed rows 4096 t … 4096 t + 4095
  of the neighbour sums, of the nodes' own features and of the in-degrees, together with the whole weight matrix and
  the whole bias row, and it writes back rows 4096 t … 4096 t + 4095 of its output. An entry of a layer depends on its
  own node's row only, so what point t writes back is row block t of the layer of the WHOLE arrays; the 13 blocks cover
  every row (row r lies in the block of point r / 4096), so the output array ends holding the layer of the arrays the
  call found, whatever those arrays are.
-/
import proofs.«115634_j10282151707715_1_alg».proof.Proof.Gen.KernelIdeal.Frame
import proofs.«115634_j10282151707715_1_alg».proof.Proof.SageSpec
import proofs.«115634_j10282151707715_1_alg».proof.Proof.KernelBlock
import Idealize.ShloMosaic.Lib.ValueIdx
import Idealize.ShloMosaic.Lib.Pipeline.Value

noncomputable section

namespace Cert.Sage.Ker

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The block indices over the grid of 13 points: at point t the two feature windows, the degree window and the output
    window are on row block t, the weights and the bias on their one block. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 13 :=
  (by decide +kernel : ∀ t : Fin grid0.N, _)

/-- Row p of the neighbour-sum block at point t is row 4096 t + p of the neighbour sums. -/
theorem neighbour_rows0 (c : Dev nD) (t : Fin cfg0.N) (p : Fin 4096) (k : Fin 128) (P : Fin 53248)
    (hP : P.val = 4096 * t.val + p.val) :
    (iblk0 V c 0 t : Vec Ideal S4096x128 .f32) (ix2 p k) = (V c main_v18 : S53248x128.Idx → Ideal .f32) (ix2 P k) := by
  obtain ⟨e0, e1, -⟩ := block_index0 t
  unfold iblk0
  rw [View.read_apply]
  show (V c main_v18 : S53248x128.Idx → Ideal .f32) _ = _
  refine congrArg (V c main_v18 : S53248x128.Idx → Ideal .f32) (funext fun a => Fin.ext ?_)
  match a with
  | ⟨0, _⟩ => show win0_0.index t (0 : Fin 2) * 4096 + 1 * p.val = P.val; omega
  | ⟨1, _⟩ => show win0_0.index t (1 : Fin 2) * 128 + 1 * k.val = k.val; omega

/-- Row p of the own-feature block at point t is row 4096 t + p of the features. -/
theorem feature_rows0 (c : Dev nD) (t : Fin cfg0.N) (p : Fin 4096) (k : Fin 128) (P : Fin 53248)
    (hP : P.val = 4096 * t.val + p.val) :
    (iblk0 V c 1 t : Vec Ideal S4096x128 .f32) (ix2 p k) = (V c main_v19 : S53248x128.Idx → Ideal .f32) (ix2 P k) := by
  obtain ⟨-, -, e0, e1, -⟩ := block_index0 t
  unfold iblk0
  rw [View.read_apply]
  show (V c main_v19 : S53248x128.Idx → Ideal .f32) _ = _
  refine congrArg (V c main_v19 : S53248x128.Idx → Ideal .f32) (funext fun a => Fin.ext ?_)
  match a with
  | ⟨0, _⟩ => show win0_1.index t (0 : Fin 2) * 4096 + 1 * p.val = P.val; omega
  | ⟨1, _⟩ => show win0_1.index t (1 : Fin 2) * 128 + 1 * k.val = k.val; omega

/-- Entry p of the degree block at point t is the degree of node 4096 t + p. -/
theorem degree_rows0 (c : Dev nD) (t : Fin cfg0.N) (p : Fin 4096) (P : Fin 53248)
    (hP : P.val = 4096 * t.val + p.val) :
    (iblk0 V c 2 t : Vec Ideal S4096x1 .f32) (ix2 p 0) = (V c main_v20 : S53248x1.Idx → Ideal .f32) (ix2 P 0) := by
  obtain ⟨-, -, -, -, e0, e1, -⟩ := block_index0 t
  unfold iblk0
  rw [View.read_apply]
  show (V c main_v20 : S53248x1.Idx → Ideal .f32) _ = _
  refine congrArg (V c main_v20 : S53248x1.Idx → Ideal .f32) (funext fun a => Fin.ext ?_)
  match a with
  | ⟨0, _⟩ => show win0_2.index t (0 : Fin 2) * 4096 + 1 * p.val = P.val; omega
  | ⟨1, _⟩ => show win0_2.index t (1 : Fin 2) * 1 + 1 * 0 = 0; omega

/-- The weight block is the weight matrix at every point. -/
theorem weight_rows0 (c : Dev nD) (t : Fin cfg0.N) (q : Fin 128) (k : Fin 128) :
    (iblk0 V c 3 t : Vec Ideal S128x128 .f32) (ix2 q k) = (V c main_arg3 : S128x128.Idx → Ideal .f32) (ix2 q k) := by
  obtain ⟨-, -, -, -, -, -, e0, e1, -⟩ := block_index0 t
  unfold iblk0
  rw [View.read_apply]
  show (V c main_arg3 : S128x128.Idx → Ideal .f32) _ = _
  refine congrArg (V c main_arg3 : S128x128.Idx → Ideal .f32) (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

/-- The bias block is the bias row at every point. -/
theorem bias_row0 (c : Dev nD) (t : Fin cfg0.N) (q : Fin 128) :
    (iblk0 V c 4 t : Vec Ideal S1x128 .f32) (ix2 0 q) = (V c main_v21 : S1x128.Idx → Ideal .f32) (ix2 0 q) := by
  obtain ⟨-, -, -, -, -, -, -, -, e0, e1, -⟩ := block_index0 t
  unfold iblk0
  rw [View.read_apply]
  show (V c main_v21 : S1x128.Idx → Ideal .f32) _ = _
  refine congrArg (V c main_v21 : S1x128.Idx → Ideal .f32) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The first layer of the arrays the region finds, as one whole array. -/
abbrev firstLayer (c : Dev nD) : S53248x128.Idx → Ideal .f32 :=
  Cert.Sage.layer true (N := 53248) (K := 128) (D := 128)
    (V c main_v18) (V c main_v19) (fun p => V c main_v20 (ix2 p 0)) (V c main_arg3) (fun q => V c main_v21 (ix2 0 q))

/-- WHAT POINT t WRITES BACK is row block t of the first layer. -/
theorem written0 (c : Dev nD) (t : Fin cfg0.N) :
    (dat0 (F := Ideal) V c).flushed 5 t = ((cfg0.win 5).blk t).view.read (Elt Ideal) (firstLayer V c) := by
  show (cfg0.win 5).cut (grid0.coords t) ((dat0 (F := Ideal) V c).after 5 t) = _
  rw [after0_5]
  obtain ⟨-, -, -, -, -, -, -, -, -, -, e0, e1, ht⟩ := block_index0 t
  funext j
  have hj0 : (j 0).val < 4096 := (j 0).isLt
  have hj1 : (j 1).val < 128 := (j 1).isLt
  rw [View.read_apply]
  have eL : (cfg0.win 5).xinj (grid0.coords t) j = ix2 (⟨(j 0).val, hj0⟩ : Fin 4096) (⟨(j 1).val, hj1⟩ : Fin 128) :=
    funext fun a => match a with
      | ⟨0, _⟩ => rfl
      | ⟨1, _⟩ => rfl
  have eR : ((cfg0.win 5).blk t).view.emb j
      = ix2 (⟨4096 * t.val + (j 0).val, by omega⟩ : Fin 53248) (⟨(j 1).val, hj1⟩ : Fin 128) :=
    funext fun a => Fin.ext (by
      match a with
      | ⟨0, _⟩ => show win0_5.index t (0 : Fin 2) * 4096 + 1 * (j 0).val = 4096 * t.val + (j 0).val; omega
      | ⟨1, _⟩ => show win0_5.index t (1 : Fin 2) * 128 + 1 * (j 1).val = (j 1).val; omega)
  show out0_5 (iblk0 V c 0 t) (iblk0 V c 1 t) (iblk0 V c 2 t) (iblk0 V c 3 t) (iblk0 V c 4 t) ((cfg0.win 5).xinj (grid0.coords t) j)
    = firstLayer V c (((cfg0.win 5).blk t).view.emb j)
  rw [eL, eR, hidden_block]
  exact entry_of_rows true _ _ _ _ _ _ _ _ _ _ _ _ _
    (fun k => neighbour_rows0 V c t _ k _ rfl) (fun k => feature_rows0 V c t _ k _ rfl) (degree_rows0 V c t _ _ rfl)
    (fun k => weight_rows0 V c t _ k) (bias_row0 V c t _)

/-- An index of the output array is in point t's block iff each coordinate is in the block's range on its axis. -/
theorem mem_block0 (t : Fin cfg0.N) (i : S53248x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v22).slice (win0_5.rect t)).set ↔ _
  rw [View.set_slice_whole, Rect.mem_set_unit]
  exact Iff.rfl

/-- Every row of the output array is in some point's block: row r in the block of point r / 4096. -/
theorem covered0 (i : S53248x128.Idx) :
    ∃ t : Fin cfg0.N, (cfg0.win 5).flush t = true ∧ i ∈ ((cfg0.win 5).blk t).view.set := by
  have hi0 : (i 0).val < 53248 := (i 0).isLt
  have hi1 : (i 1).val < 128 := (i 1).isLt
  have hN : cfg0.N = 13 := N_0
  let t : Fin cfg0.N := ⟨(i 0).val / 4096, by rw [hN]; omega⟩
  obtain ⟨-, -, -, -, -, -, -, -, -, -, e0, e1, -⟩ := block_index0 t
  have ht : t.val = (i 0).val / 4096 := rfl
  refine ⟨t, flush0_5 t, ?_⟩
  rw [mem_block0]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- THE OUTPUT ARRAY OF THE FIRST DENSE CALL: the first layer of the arrays the call finds. -/
theorem region0_out (c : Dev nD) :
    (dat0 (F := Ideal) V c).arrAt 5 cfg0.N =
      Cert.Sage.layer true (N := 53248) (K := 128) (D := 128)
        (V c main_v18) (V c main_v19) (fun p => V c main_v20 (ix2 p 0)) (V c main_arg3) (fun q => V c main_v21 (ix2 0 q)) :=
  (dat0 (F := Ideal) V c).arrAt_eq_of_cover 5 (firstLayer V c) (fun t _ => written0 V c t) covered0

end Cert.Sage.Ker

end
-- ==== Proof.KernelRegion1.lean ====
/-
  The second dense call, read as one whole-array function.

  The call walks the 53248 padded node rows in 13 blocks of 4096 rows. At point t it is handed rows 4096 t … 4096 t + 4095
  of the neighbour sums, of the nodes' own features and of the in-degrees, together with the whole weight matrix and
  the whole bias row, and it writes back rows 4096 t … 4096 t + 4095 of its output. An entry of a layer depends on its
  own node's row only, so what point t writes back is row block t of the layer of the WHOLE arrays; the 13 blocks cover
  every row (row r lies in the block of point r / 4096), so the output array ends holding the layer of the arrays the
  call found, whatever those arrays are.
-/
import proofs.«115634_j10282151707715_1_alg».proof.Proof.Gen.KernelIdeal.Frame
import proofs.«115634_j10282151707715_1_alg».proof.Proof.SageSpec
import proofs.«115634_j10282151707715_1_alg».proof.Proof.KernelBlock
import Idealize.ShloMosaic.Lib.ValueIdx
import Idealize.ShloMosaic.Lib.Pipeline.Value

noncomputable section

namespace Cert.Sage.Ker

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The block indices over the grid of 13 points: at point t the two feature windows, the degree window and the output
    window are on row block t, the weights and the bias on their one block. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 13 :=
  (by decide +kernel : ∀ t : Fin grid1.N, _)

/-- Row p of the neighbour-sum block at point t is row 4096 t + p of the neighbour sums. -/
theorem neighbour_rows1 (c : Dev nD) (t : Fin cfg1.N) (p : Fin 4096) (k : Fin 128) (P : Fin 53248)
    (hP : P.val = 4096 * t.val + p.val) :
    (iblk1 V c 0 t : Vec Ideal S4096x128 .f32) (ix2 p k) = (V c main_v34 : S53248x128.Idx → Ideal .f32) (ix2 P k) := by
  obtain ⟨e0, e1, -⟩ := block_index1 t
  unfold iblk1
  rw [View.read_apply]
  show (V c main_v34 : S53248x128.Idx → Ideal .f32) _ = _
  refine congrArg (V c main_v34 : S53248x128.Idx → Ideal .f32) (funext fun a => Fin.ext ?_)
  match a with
  | ⟨0, _⟩ => show win1_0.index t (0 : Fin 2) * 4096 + 1 * p.val = P.val; omega
  | ⟨1, _⟩ => show win1_0.index t (1 : Fin 2) * 128 + 1 * k.val = k.val; omega

/-- Row p of the own-feature block at point t is row 4096 t + p of the features. -/
theorem feature_rows1 (c : Dev nD) (t : Fin cfg1.N) (p : Fin 4096) (k : Fin 128) (P : Fin 53248)
    (hP : P.val = 4096 * t.val + p.val) :
    (iblk1 V c 1 t : Vec Ideal S4096x128 .f32) (ix2 p k) = (V c main_v35 : S53248x128.Idx → Ideal .f32) (ix2 P k) := by
  obtain ⟨-, -, e0, e1, -⟩ := block_index1 t
  unfold iblk1
  rw [View.read_apply]
  show (V c main_v35 : S53248x128.Idx → Ideal .f32) _ = _
  refine congrArg (V c main_v35 : S53248x128.Idx → Ideal .f32) (funext fun a => Fin.ext ?_)
  match a with
  | ⟨0, _⟩ => show win1_1.index t (0 : Fin 2) * 4096 + 1 * p.val = P.val; omega
  | ⟨1, _⟩ => show win1_1.index t (1 : Fin 2) * 128 + 1 * k.val = k.val; omega

/-- Entry p of the degree block at point t is the degree of node 4096 t + p. -/
theorem degree_rows1 (c : Dev nD) (t : Fin cfg1.N) (p : Fin 4096) (P : Fin 53248)
    (hP : P.val = 4096 * t.val + p.val) :
    (iblk1 V c 2 t : Vec Ideal S4096x1 .f32) (ix2 p 0) = (V c main_v36 : S53248x1.Idx → Ideal .f32) (ix2 P 0) := by
  obtain ⟨-, -, -, -, e0, e1, -⟩ := block_index1 t
  unfold iblk1
  rw [View.read_apply]
  show (V c main_v36 : S53248x1.Idx → Ideal .f32) _ = _
  refine congrArg (V c main_v36 : S53248x1.Idx → Ideal .f32) (funext fun a => Fin.ext ?_)
  match a with
  | ⟨0, _⟩ => show win1_2.index t (0 : Fin 2) * 4096 + 1 * p.val = P.val; omega
  | ⟨1, _⟩ => show win1_2.index t (1 : Fin 2) * 1 + 1 * 0 = 0; omega

/-- The weight block is the weight matrix at every point. -/
theorem weight_rows1 (c : Dev nD) (t : Fin cfg1.N) (q : Fin 128) (k : Fin 128) :
    (iblk1 V c 3 t : Vec Ideal S128x128 .f32) (ix2 q k) = (V c main_arg5 : S128x128.Idx → Ideal .f32) (ix2 q k) := by
  obtain ⟨-, -, -, -, -, -, e0, e1, -⟩ := block_index1 t
  unfold iblk1
  rw [View.read_apply]
  show (V c main_arg5 : S128x128.Idx → Ideal .f32) _ = _
  refine congrArg (V c main_arg5 : S128x128.Idx → Ideal .f32) (funext fun a => Fin.ext ?_)
  match a with
  | ⟨0, _⟩ => show win1_3.index t (0 : Fin 2) * 128 + 1 * q.val = q.val; omega
  | ⟨1, _⟩ => show win1_3.index t (1 : Fin 2) * 128 + 1 * k.val = k.val; omega

/-- The bias block is the bias row at every point. -/
theorem bias_row1 (c : Dev nD) (t : Fin cfg1.N) (q : Fin 128) :
    (iblk1 V c 4 t : Vec Ideal S1x128 .f32) (ix2 0 q) = (V c main_v37 : S1x128.Idx → Ideal .f32) (ix2 0 q) := by
  obtain ⟨-, -, -, -, -, -, -, -, e0, e1, -⟩ := block_index1 t
  unfold iblk1
  rw [View.read_apply]
  show (V c main_v37 : S1x128.Idx → Ideal .f32) _ = _
  refine congrArg (V c main_v37 : S1x128.Idx → Ideal .f32) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The second layer of the arrays the region finds, as one whole array. -/
abbrev secondLayer (c : Dev nD) : S53248x128.Idx → Ideal .f32 :=
  Cert.Sage.layer true (N := 53248) (K := 128) (D := 128)
    (V c main_v34) (V c main_v35) (fun p => V c main_v36 (ix2 p 0)) (V c main_arg5) (fun q => V c main_v37 (ix2 0 q))

/-- WHAT POINT t WRITES BACK is row block t of the second layer. -/
theorem written1 (c : Dev nD) (t : Fin cfg1.N) :
    (dat1 (F := Ideal) V c).flushed 5 t = ((cfg1.win 5).blk t).view.read (Elt Ideal) (secondLayer V c) := by
  show (cfg1.win 5).cut (grid1.coords t) ((dat1 (F := Ideal) V c).after 5 t) = _
  rw [after1_5]
  obtain ⟨-, -, -, -, -, -, -, -, -, -, e0, e1, ht⟩ := block_index1 t
  funext j
  have hj0 : (j 0).val < 4096 := (j 0).isLt
  have hj1 : (j 1).val < 128 := (j 1).isLt
  rw [View.read_apply]
  have eL : (cfg1.win 5).xinj (grid1.coords t) j = ix2 (⟨(j 0).val, hj0⟩ : Fin 4096) (⟨(j 1).val, hj1⟩ : Fin 128) :=
    funext fun a => match a with
      | ⟨0, _⟩ => rfl
      | ⟨1, _⟩ => rfl
  have eR : ((cfg1.win 5).blk t).view.emb j
      = ix2 (⟨4096 * t.val + (j 0).val, by omega⟩ : Fin 53248) (⟨(j 1).val, hj1⟩ : Fin 128) :=
    funext fun a => Fin.ext (by
      match a with
      | ⟨0, _⟩ => show win1_5.index t (0 : Fin 2) * 4096 + 1 * (j 0).val = 4096 * t.val + (j 0).val; omega
      | ⟨1, _⟩ => show win1_5.index t (1 : Fin 2) * 128 + 1 * (j 1).val = (j 1).val; omega)
  show out1_5 (iblk1 V c 0 t) (iblk1 V c 1 t) (iblk1 V c 2 t) (iblk1 V c 3 t) (iblk1 V c 4 t) ((cfg1.win 5).xinj (grid1.coords t) j)
    = secondLayer V c (((cfg1.win 5).blk t).view.emb j)
  rw [eL, eR, hidden_block_second]
  exact entry_of_rows true _ _ _ _ _ _ _ _ _ _ _ _ _
    (fun k => neighbour_rows1 V c t _ k _ rfl) (fun k => feature_rows1 V c t _ k _ rfl) (degree_rows1 V c t _ _ rfl)
    (fun k => weight_rows1 V c t _ k) (bias_row1 V c t _)

/-- An index of the output array is in point t's block iff each coordinate is in the block's range on its axis. -/
theorem mem_block1 (t : Fin cfg1.N) (i : S53248x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole main_v38).slice (win1_5.rect t)).set ↔ _
  rw [View.set_slice_whole, Rect.mem_set_unit]
  exact Iff.rfl

/-- Every row of the output array is in some point's block: row r in the block of point r / 4096. -/
theorem covered1 (i : S53248x128.Idx) :
    ∃ t : Fin cfg1.N, (cfg1.win 5).flush t = true ∧ i ∈ ((cfg1.win 5).blk t).view.set := by
  have hi0 : (i 0).val < 53248 := (i 0).isLt
  have hi1 : (i 1).val < 128 := (i 1).isLt
  have hN : cfg1.N = 13 := N_1
  let t : Fin cfg1.N := ⟨(i 0).val / 4096, by rw [hN]; omega⟩
  obtain ⟨-, -, -, -, -, -, -, -, -, -, e0, e1, -⟩ := block_index1 t
  have ht : t.val = (i 0).val / 4096 := rfl
  refine ⟨t, flush1_5 t, ?_⟩
  rw [mem_block1]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-- THE OUTPUT ARRAY OF THE SECOND DENSE CALL: the second layer of the arrays the call finds. -/
theorem region1_out (c : Dev nD) :
    (dat1 (F := Ideal) V c).arrAt 5 cfg1.N =
      Cert.Sage.layer true (N := 53248) (K := 128) (D := 128)
        (V c main_v34) (V c main_v35) (fun p => V c main_v36 (ix2 p 0)) (V c main_arg5) (fun q => V c main_v37 (ix2 0 q)) :=
  (dat1 (F := Ideal) V c).arrAt_eq_of_cover 5 (secondLayer V c) (fun t _ => written1 V c t) covered1

end Cert.Sage.Ker

end
-- ==== Proof.KernelRegion2.lean ====
/-
  The third dense call, read as one whole-array function.

  The call walks the 53248 padded node rows in 13 blocks of 4096 rows. At point t it is handed rows 4096 t … 4096 t + 4095
  of the neighbour sums, of the nodes' own features and of the in-degrees, together with the whole 64-row weight matrix
  and the whole bias row, and it writes back rows 4096 t … 4096 t + 4095 of its 64-feature output, with no activation. An
  entry of a layer depends on its own node's row only, so what point t writes back is row block t of the layer of the
  WHOLE arrays; the 13 blocks cover every row (row r lies in the block of point r / 4096), so the output array ends
  holding the layer of the arrays the call found, whatever those arrays are.
-/
import proofs.«115634_j10282151707715_1_alg».proof.Proof.Gen.KernelIdeal.Frame
import proofs.«115634_j10282151707715_1_alg».proof.Proof.SageSpec
import proofs.«115634_j10282151707715_1_alg».proof.Proof.KernelBlock
import Idealize.ShloMosaic.Lib.ValueIdx
import Idealize.ShloMosaic.Lib.Pipeline.Value

noncomputable section

namespace Cert.Sage.Ker

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The block indices over the grid of 13 points: at point t the two feature windows, the degree window and the output
    window are on row block t, the weights and the bias on their one block. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ t.val < 13 :=
  (by decide +kernel : ∀ t : Fin grid2.N, _)

/-- Row p of the neighbour-sum block at point t is row 4096 t + p of the neighbour sums. -/
theorem neighbour_rows2 (c : Dev nD) (t : Fin cfg2.N) (p : Fin 4096) (k : Fin 128) (P : Fin 53248)
    (hP : P.val = 4096 * t.val + p.val) :
    (iblk2 V c 0 t : Vec Ideal S4096x128 .f32) (ix2 p k) = (V c main_v50 : S53248x128.Idx → Ideal .f32) (ix2 P k) := by
  obtain ⟨e0, e1, -⟩ := block_index2 t
  unfold iblk2
  rw [View.read_apply]
  show (V c main_v50 : S53248x128.Idx → Ideal .f32) _ = _
  refine congrArg (V c main_v50 : S53248x128.Idx → Ideal .f32) (funext fun a => Fin.ext ?_)
  match a with
  | ⟨0, _⟩ => show win2_0.index t (0 : Fin 2) * 4096 + 1 * p.val = P.val; omega
  | ⟨1, _⟩ => show win2_0.index t (1 : Fin 2) * 128 + 1 * k.val = k.val; omega

/-- Row p of the own-feature block at point t is row 4096 t + p of the features. -/
theorem feature_rows2 (c : Dev nD) (t : Fin cfg2.N) (p : Fin 4096) (k : Fin 128) (P : Fin 53248)
    (hP : P.val = 4096 * t.val + p.val) :
    (iblk2 V c 1 t : Vec Ideal S4096x128 .f32) (ix2 p k) = (V c main_v51 : S53248x128.Idx → Ideal .f32) (ix2 P k) := by
  obtain ⟨-, -, e0, e1, -⟩ := block_index2 t
  unfold iblk2
  rw [View.read_apply]
  show (V c main_v51 : S53248x128.Idx → Ideal .f32) _ = _
  refine congrArg (V c main_v51 : S53248x128.Idx → Ideal .f32) (funext fun a => Fin.ext ?_)
  match a with
  | ⟨0, _⟩ => show win2_1.index t (0 : Fin 2) * 4096 + 1 * p.val = P.val; omega
  | ⟨1, _⟩ => show win2_1.index t (1 : Fin 2) * 128 + 1 * k.val = k.val; omega

/-- Entry p of the degree block at point t is the degree of node 4096 t + p. -/
theorem degree_rows2 (c : Dev nD) (t : Fin cfg2.N) (p : Fin 4096) (P : Fin 53248)
    (hP : P.val = 4096 * t.val + p.val) :
    (iblk2 V c 2 t : Vec Ideal S4096x1 .f32) (ix2 p 0) = (V c main_v52 : S53248x1.Idx → Ideal .f32) (ix2 P 0) := by
  obtain ⟨-, -, -, -, e0, e1, -⟩ := block_index2 t
  unfold iblk2
  rw [View.read_apply]
  show (V c main_v52 : S53248x1.Idx → Ideal .f32) _ = _
  refine congrArg (V c main_v52 : S53248x1.Idx → Ideal .f32) (funext fun a => Fin.ext ?_)
  match a with
  | ⟨0, _⟩ => show win2_2.index t (0 : Fin 2) * 4096 + 1 * p.val = P.val; omega
  | ⟨1, _⟩ => show win2_2.index t (1 : Fin 2) * 1 + 1 * 0 = 0; omega

/-- The weight block is the weight matrix at every point. -/
theorem weight_rows2 (c : Dev nD) (t : Fin cfg2.N) (q : Fin 64) (k : Fin 128) :
    (iblk2 V c 3 t : Vec Ideal S64x128 .f32) (ix2 q k) = (V c main_arg7 : S64x128.Idx → Ideal .f32) (ix2 q k) := by
  obtain ⟨-, -, -, -, -, -, e0, e1, -⟩ := block_index2 t
  unfold iblk2
  rw [View.read_apply]
  show (V c main_arg7 : S64x128.Idx → Ideal .f32) _ = _
  refine congrArg (V c main_arg7 : S64x128.Idx → Ideal .f32) (funext fun a => Fin.ext ?_)
  match a with
  | ⟨0, _⟩ => show win2_3.index t (0 : Fin 2) * 64 + 1 * q.val = q.val; omega
  | ⟨1, _⟩ => show win2_3.index t (1 : Fin 2) * 128 + 1 * k.val = k.val; omega

/-- The bias block is the bias row at every point. -/
theorem bias_row2 (c : Dev nD) (t : Fin cfg2.N) (q : Fin 64) :
    (iblk2 V c 4 t : Vec Ideal S1x64 .f32) (ix2 0 q) = (V c main_v53 : S1x64.Idx → Ideal .f32) (ix2 0 q) := by
  obtain ⟨-, -, -, -, -, -, -, -, e0, e1, -⟩ := block_index2 t
  unfold iblk2
  rw [View.read_apply]
  show (V c main_v53 : S1x64.Idx → Ideal .f32) _ = _
  refine congrArg (V c main_v53 : S1x64.Idx → Ideal .f32) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- The output layer of the arrays the region finds, as one whole array. -/
abbrev outputLayer (c : Dev nD) : S53248x64.Idx → Ideal .f32 :=
  Cert.Sage.layer false (N := 53248) (K := 128) (D := 64)
    (V c main_v50) (V c main_v51) (fun p => V c main_v52 (ix2 p 0)) (V c main_arg7) (fun q => V c main_v53 (ix2 0 q))

/-- WHAT POINT t WRITES BACK is row block t of the output layer. -/
theorem written2 (c : Dev nD) (t : Fin cfg2.N) :
    (dat2 (F := Ideal) V c).flushed 5 t = ((cfg2.win 5).blk t).view.read (Elt Ideal) (outputLayer V c) := by
  show (cfg2.win 5).cut (grid2.coords t) ((dat2 (F := Ideal) V c).after 5 t) = _
  rw [after2_5]
  obtain ⟨-, -, -, -, -, -, -, -, -, -, e0, e1, ht⟩ := block_index2 t
  funext j
  have hj0 : (j 0).val < 4096 := (j 0).isLt
  have hj1 : (j 1).val < 64 := (j 1).isLt
  rw [View.read_apply]
  have eL : (cfg2.win 5).xinj (grid2.coords t) j = ix2 (⟨(j 0).val, hj0⟩ : Fin 4096) (⟨(j 1).val, hj1⟩ : Fin 64) :=
    funext fun a => match a with
      | ⟨0, _⟩ => rfl
      | ⟨1, _⟩ => rfl
  have eR : ((cfg2.win 5).blk t).view.emb j
      = ix2 (⟨4096 * t.val + (j 0).val, by omega⟩ : Fin 53248) (⟨(j 1).val, hj1⟩ : Fin 64) :=
    funext fun a => Fin.ext (by
      match a with
      | ⟨0, _⟩ => show win2_5.index t (0 : Fin 2) * 4096 + 1 * (j 0).val = 4096 * t.val + (j 0).val; omega
      | ⟨1, _⟩ => show win2_5.index t (1 : Fin 2) * 64 + 1 * (j 1).val = (j 1).val; omega)
  show out2_5 (iblk2 V c 0 t) (iblk2 V c 1 t) (iblk2 V c 2 t) (iblk2 V c 3 t) (iblk2 V c 4 t) ((cfg2.win 5).xinj (grid2.coords t) j)
    = outputLayer V c (((cfg2.win 5).blk t).view.emb j)
  rw [eL, eR, output_block]
  exact entry_of_rows false _ _ _ _ _ _ _ _ _ _ _ _ _
    (fun k => neighbour_rows2 V c t _ k _ rfl) (fun k => feature_rows2 V c t _ k _ rfl) (degree_rows2 V c t _ _ rfl)
    (fun k => weight_rows2 V c t _ k) (bias_row2 V c t _)

/-- An index of the output array is in point t's block iff each coordinate is in the block's range on its axis. -/
theorem mem_block2 (t : Fin cfg2.N) (i : S53248x64.Idx) :
    i ∈ ((cfg2.win 5).blk t).view.set ↔ ∀ a : Fin 2, win2_5.index t a * S4096x64.size a ≤ (i a).val
      ∧ (i a).val < win2_5.index t a * S4096x64.size a + S4096x64.size a := by
  show i ∈ ((View.whole main_v54).slice (win2_5.rect t)).set ↔ _
  rw [View.set_slice_whole, Rect.mem_set_unit]
  exact Iff.rfl

/-- Every row of the output array is in some point's block: row r in the block of point r / 4096. -/
theorem covered2 (i : S53248x64.Idx) :
    ∃ t : Fin cfg2.N, (cfg2.win 5).flush t = true ∧ i ∈ ((cfg2.win 5).blk t).view.set := by
  have hi0 : (i 0).val < 53248 := (i 0).isLt
  have hi1 : (i 1).val < 64 := (i 1).isLt
  have hN : cfg2.N = 13 := N_2
  let t : Fin cfg2.N := ⟨(i 0).val / 4096, by rw [hN]; omega⟩
  obtain ⟨-, -, -, -, -, -, -, -, -, -, e0, e1, -⟩ := block_index2 t
  have ht : t.val = (i 0).val / 4096 := rfl
  refine ⟨t, flush2_5 t, ?_⟩
  rw [mem_block2]
  intro a
  match a with
  | ⟨0, _⟩ => show win2_5.index t (0 : Fin 2) * 4096 ≤ (i 0).val ∧ (i 0).val < win2_5.index t (0 : Fin 2) * 4096 + 4096; omega
  | ⟨1, _⟩ => show win2_5.index t (1 : Fin 2) * 64 ≤ (i 1).val ∧ (i 1).val < win2_5.index t (1 : Fin 2) * 64 + 64; omega

/-- THE OUTPUT ARRAY OF THE THIRD DENSE CALL: the output layer of the arrays the call finds. -/
theorem region2_out (c : Dev nD) :
    (dat2 (F := Ideal) V c).arrAt 5 cfg2.N =
      Cert.Sage.layer false (N := 53248) (K := 128) (D := 64)
        (V c main_v50) (V c main_v51) (fun p => V c main_v52 (ix2 p 0)) (V c main_arg7) (fun q => V c main_v53 (ix2 0 q)) :=
  (dat2 (F := Ideal) V c).arrAt_eq_of_cover 5 (outputLayer V c) (fun t _ => written2 V c t) covered2

end Cert.Sage.Ker

end
-- ==== Proof.RefLayers.lean ====
/-
  The reference program computes the three-layer specification `Cert.Sage.net`.

  Each layer of the reference is, entry by entry, the specification's `entry`: at row `p` and output feature `q`,

      act ( Σ_k ((neigh (p, k) + h (p, k)) / (deg p + 1)) · W (q, k)  +  b q ),

  where `h` is the layer's input, `neigh` the aggregation of `h` over the in-edges, `deg` the in-degree, and the
  weights enter transposed, so that entry `(k, q)` of the matrix the product contracts with is `W (q, k)`.  The degree
  column `[N, 1]` and the bias row `[1, D]` are broadcasts of a vector, read back at the vector's own index.  The
  aggregation and the degree are never opened: layer 1 aggregates layer 0's output with the very function that
  aggregated the input features, over the same edge lists, and likewise layer 2; the degree is one vector for all three.
-/
import proofs.«115634_j10282151707715_1_alg».proof.Proof.Gen.ReferenceIdeal.Read
import proofs.«115634_j10282151707715_1_alg».proof.Proof.SageSpec

noncomputable section

namespace Cert.Sage.Ref

open Idealize.ShloMosaic Idealize.ShloMosaic.ValueIdx Cert.ReferenceIdeal Cert.ReferenceIdeal.Read

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S64x128, .f32⟩ : BufTy).Contents (Elt Ideal)) (x8 : (⟨S64, .f32⟩ : BufTy).Contents (Elt Ideal))

/-! ## Layer 0

The operand indices of the contraction at output `(p, q)` and contraction coordinate `k` are `(p, k)` and `(k, q)`;
the transpose reads `(k, q)` at `(q, k)`; the degree column is read at `(p, 0)`, that is at `p`; the bias row at
`(0, q)`, that is at `q`. -/

theorem lidx24 (p : Fin 50000) (q k : Fin 128) : lidx_main_v24 (ix2 p q) k = ix2 p k :=
  funext fun a => Fin.ext (by match a with | ⟨0, _⟩ => rfl | ⟨1, _⟩ => rfl)
theorem ridx24 (p : Fin 50000) (q k : Fin 128) : ridx_main_v24 (ix2 p q) k = ix2 k q :=
  funext fun a => Fin.ext (by match a with | ⟨0, _⟩ => rfl | ⟨1, _⟩ => rfl)
theorem idx23 (k q : Fin 128) : idx_main_v23 (ix2 k q) = ix2 q k :=
  funext fun a => Fin.ext (by match a with | ⟨0, _⟩ => rfl | ⟨1, _⟩ => rfl)
theorem idx21 (p : Fin 50000) (k : Fin 128) : idx_main_v21 (ix2 p k) = ix2 p (0 : Fin 1) :=
  funext fun a => Fin.ext (by match a with | ⟨0, _⟩ => rfl | ⟨1, _⟩ => rfl)
theorem idx18 (p : Fin 50000) (z : Fin 1) : idx_main_v18 (ix2 p z) = ix1 p :=
  funext fun a => Fin.ext (by match a with | ⟨0, _⟩ => rfl)
theorem idx26 (p : Fin 50000) (q : Fin 128) : idx_main_v26 (ix2 p q) = ix2 (0 : Fin 1) q :=
  funext fun a => Fin.ext (by match a with | ⟨0, _⟩ => rfl | ⟨1, _⟩ => rfl)
theorem idx25 (z : Fin 1) (q : Fin 128) : idx_main_v25 (ix2 z q) = ix1 q :=
  funext fun a => Fin.ext (by match a with | ⟨0, _⟩ => rfl)

/-- One term of layer 0's contraction: the mean of row `p` at feature `k`, times `W0 (q, k)`. -/
theorem term0 (p : Fin 50000) (q k : Fin 128) :
    val_main_v22 (F := Ideal) x0 x1 x2 (lidx_main_v24 (ix2 p q) k) * val_main_v23 (F := Ideal) x3 (ridx_main_v24 (ix2 p q) k)
      = Ideal.div (val_main_v12 (F := Ideal) x0 x1 x2 (ix2 p k) + x0 (ix2 p k))
          (val_main_v16 (F := Ideal) x2 (ix1 p) + Ideal.ofBits .f32 0x3F800000#32) * x3 (ix2 q k) := by
  rw [lidx24, ridx24, val_main_v22_apply, val_main_v17_apply, val_main_v21_apply, idx21, val_main_v20_apply,
    val_main_v18_apply, idx18, val_main_v19_apply, val_main_cst_3_apply, val_main_v23_apply, idx23]
  rfl

/-- Layer 0 of the reference is the specification's hidden layer on the input features. -/
theorem layer0 :
    val_main_v28 (F := Ideal) x0 x1 x2 x3 x4 =
      Cert.Sage.layer (N := 50000) true (val_main_v12 (F := Ideal) x0 x1 x2) x0
        (fun p => val_main_v16 (F := Ideal) x2 (ix1 p)) x3 (fun q => x4 (ix1 q)) := by
  funext i
  obtain ⟨p, q, rfl⟩ : ∃ (p : Fin 50000) (q : Fin 128), i = ix2 p q := ⟨i 0, i 1, eq_ix2 i⟩
  rw [Cert.Sage.layer_apply, val_main_v28_apply, val_main_v27_apply, val_main_v24_apply, val_main_v26_apply,
    val_main_v25_apply, val_main_call0_v0_apply, val_main_call0_cst_apply, idx26, idx25,
    Finset.sum_congr rfl (fun k _ => term0 x0 x1 x2 x3 p q k)]
  unfold Cert.Sage.entry Cert.Sage.act
  rw [if_pos rfl]
  rfl

/-! ## Layer 1

The same reading, of layer 0's output.  Its aggregation is the aggregation of layer 0 applied to that output, and its
degree vector is layer 0's: the program recomputes both from the same edge lists by the same operations. -/

theorem agg1 :
    val_main_v38 (F := Ideal) x0 x1 x2 x3 x4 = val_main_v12 (F := Ideal) (val_main_v28 (F := Ideal) x0 x1 x2 x3 x4) x1 x2 := rfl

theorem deg1 : val_main_v42 (F := Ideal) x2 = val_main_v16 (F := Ideal) x2 := rfl

theorem lidx50 (p : Fin 50000) (q k : Fin 128) : lidx_main_v50 (ix2 p q) k = ix2 p k :=
  funext fun a => Fin.ext (by match a with | ⟨0, _⟩ => rfl | ⟨1, _⟩ => rfl)
theorem ridx50 (p : Fin 50000) (q k : Fin 128) : ridx_main_v50 (ix2 p q) k = ix2 k q :=
  funext fun a => Fin.ext (by match a with | ⟨0, _⟩ => rfl | ⟨1, _⟩ => rfl)
theorem idx49 (k q : Fin 128) : idx_main_v49 (ix2 k q) = ix2 q k :=
  funext fun a => Fin.ext (by match a with | ⟨0, _⟩ => rfl | ⟨1, _⟩ => rfl)
theorem idx47 (p : Fin 50000) (k : Fin 128) : idx_main_v47 (ix2 p k) = ix2 p (0 : Fin 1) :=
  funext fun a => Fin.ext (by match a with | ⟨0, _⟩ => rfl | ⟨1, _⟩ => rfl)
theorem idx44 (p : Fin 50000) (z : Fin 1) : idx_main_v44 (ix2 p z) = ix1 p :=
  funext fun a => Fin.ext (by match a with | ⟨0, _⟩ => rfl)
theorem idx52 (p : Fin 50000) (q : Fin 128) : idx_main_v52 (ix2 p q) = ix2 (0 : Fin 1) q :=
  funext fun a => Fin.ext (by match a with | ⟨0, _⟩ => rfl | ⟨1, _⟩ => rfl)
theorem idx51 (z : Fin 1) (q : Fin 128) : idx_main_v51 (ix2 z q) = ix1 q :=
  funext fun a => Fin.ext (by match a with | ⟨0, _⟩ => rfl)

/-- One term of layer 1's contraction. -/
theorem term1 (p : Fin 50000) (q k : Fin 128) :
    val_main_v48 (F := Ideal) x0 x1 x2 x3 x4 (lidx_main_v50 (ix2 p q) k) * val_main_v49 (F := Ideal) x5 (ridx_main_v50 (ix2 p q) k)
      = Ideal.div (val_main_v12 (F := Ideal) (val_main_v28 (F := Ideal) x0 x1 x2 x3 x4) x1 x2 (ix2 p k)
            + val_main_v28 (F := Ideal) x0 x1 x2 x3 x4 (ix2 p k))
          (val_main_v16 (F := Ideal) x2 (ix1 p) + Ideal.ofBits .f32 0x3F800000#32) * x5 (ix2 q k) := by
  rw [lidx50, ridx50, val_main_v48_apply, val_main_v43_apply, val_main_v47_apply, idx47, val_main_v46_apply,
    val_main_v44_apply, idx44, val_main_v45_apply, val_main_cst_9_apply, val_main_v49_apply, idx49, agg1, deg1]
  rfl

/-- Layer 1 of the reference is the specification's hidden layer on layer 0's output. -/
theorem layer1 :
    val_main_v54 (F := Ideal) x0 x1 x2 x3 x4 x5 x6 =
      Cert.Sage.layer (N := 50000) true
        (val_main_v12 (F := Ideal) (val_main_v28 (F := Ideal) x0 x1 x2 x3 x4) x1 x2) (val_main_v28 (F := Ideal) x0 x1 x2 x3 x4)
        (fun p => val_main_v16 (F := Ideal) x2 (ix1 p)) x5 (fun q => x6 (ix1 q)) := by
  funext i
  obtain ⟨p, q, rfl⟩ : ∃ (p : Fin 50000) (q : Fin 128), i = ix2 p q := ⟨i 0, i 1, eq_ix2 i⟩
  rw [Cert.Sage.layer_apply, val_main_v54_apply, val_main_v53_apply, val_main_v50_apply, val_main_v52_apply,
    val_main_v51_apply, val_main_call1_v0_apply, val_main_call1_cst_apply, idx52, idx51,
    Finset.sum_congr rfl (fun k _ => term1 x0 x1 x2 x3 x4 x5 p q k)]
  unfold Cert.Sage.entry Cert.Sage.act
  rw [if_pos rfl]
  rfl

/-! ## Layer 2

The output layer: 64 features, no activation, read of layer 1's output. -/

theorem agg2 :
    val_main_v64 (F := Ideal) x0 x1 x2 x3 x4 x5 x6
      = val_main_v12 (F := Ideal) (val_main_v54 (F := Ideal) x0 x1 x2 x3 x4 x5 x6) x1 x2 := rfl

theorem deg2 : val_main_v68 (F := Ideal) x2 = val_main_v16 (F := Ideal) x2 := rfl

theorem lidx76 (p : Fin 50000) (q : Fin 64) (k : Fin 128) : lidx_main_v76 (ix2 p q) k = ix2 p k :=
  funext fun a => Fin.ext (by match a with | ⟨0, _⟩ => rfl | ⟨1, _⟩ => rfl)
theorem ridx76 (p : Fin 50000) (q : Fin 64) (k : Fin 128) : ridx_main_v76 (ix2 p q) k = ix2 k q :=
  funext fun a => Fin.ext (by match a with | ⟨0, _⟩ => rfl | ⟨1, _⟩ => rfl)
theorem idx75 (k : Fin 128) (q : Fin 64) : idx_main_v75 (ix2 k q) = ix2 q k :=
  funext fun a => Fin.ext (by match a with | ⟨0, _⟩ => rfl | ⟨1, _⟩ => rfl)
theorem idx73 (p : Fin 50000) (k : Fin 128) : idx_main_v73 (ix2 p k) = ix2 p (0 : Fin 1) :=
  funext fun a => Fin.ext (by match a with | ⟨0, _⟩ => rfl | ⟨1, _⟩ => rfl)
theorem idx70 (p : Fin 50000) (z : Fin 1) : idx_main_v70 (ix2 p z) = ix1 p :=
  funext fun a => Fin.ext (by match a with | ⟨0, _⟩ => rfl)
theorem idx78 (p : Fin 50000) (q : Fin 64) : idx_main_v78 (ix2 p q) = ix2 (0 : Fin 1) q :=
  funext fun a => Fin.ext (by match a with | ⟨0, _⟩ => rfl | ⟨1, _⟩ => rfl)
theorem idx77 (z : Fin 1) (q : Fin 64) : idx_main_v77 (ix2 z q) = ix1 q :=
  funext fun a => Fin.ext (by match a with | ⟨0, _⟩ => rfl)

/-- One term of layer 2's contraction. -/
theorem term2 (p : Fin 50000) (q : Fin 64) (k : Fin 128) :
    val_main_v74 (F := Ideal) x0 x1 x2 x3 x4 x5 x6 (lidx_main_v76 (ix2 p q) k)
        * val_main_v75 (F := Ideal) x7 (ridx_main_v76 (ix2 p q) k)
      = Ideal.div (val_main_v12 (F := Ideal) (val_main_v54 (F := Ideal) x0 x1 x2 x3 x4 x5 x6) x1 x2 (ix2 p k)
            + val_main_v54 (F := Ideal) x0 x1 x2 x3 x4 x5 x6 (ix2 p k))
          (val_main_v16 (F := Ideal) x2 (ix1 p) + Ideal.ofBits .f32 0x3F800000#32) * x7 (ix2 q k) := by
  rw [lidx76, ridx76, val_main_v74_apply, val_main_v69_apply, val_main_v73_apply, idx73, val_main_v72_apply,
    val_main_v70_apply, idx70, val_main_v71_apply, val_main_cst_15_apply, val_main_v75_apply, idx75, agg2, deg2]
  rfl

/-- Layer 2 of the reference is the specification's output layer on layer 1's output. -/
theorem layer2 :
    val_main_v79 (F := Ideal) x0 x1 x2 x3 x4 x5 x6 x7 x8 =
      Cert.Sage.layer (N := 50000) false
        (val_main_v12 (F := Ideal) (val_main_v54 (F := Ideal) x0 x1 x2 x3 x4 x5 x6) x1 x2)
        (val_main_v54 (F := Ideal) x0 x1 x2 x3 x4 x5 x6)
        (fun p => val_main_v16 (F := Ideal) x2 (ix1 p)) x7 (fun q => x8 (ix1 q)) := by
  funext i
  obtain ⟨p, q, rfl⟩ : ∃ (p : Fin 50000) (q : Fin 64), i = ix2 p q := ⟨i 0, i 1, eq_ix2 i⟩
  rw [Cert.Sage.layer_apply, val_main_v79_apply, val_main_v76_apply, val_main_v78_apply, val_main_v77_apply, idx78, idx77,
    Finset.sum_congr rfl (fun k _ => term2 x0 x1 x2 x3 x4 x5 x6 x7 p q k)]
  unfold Cert.Sage.entry Cert.Sage.act
  rw [if_neg (by decide)]
  rfl

/-! ## The three layers together -/

/-- The reference's result is the specification's network over one aggregation map and one degree vector. -/
theorem result_eq :
    Cert.ReferenceIdeal.Read.val_main_v79 (F := Ideal) x0 x1 x2 x3 x4 x5 x6 x7 x8 =
      Cert.Sage.net (N := 50000)
        (fun h => Cert.ReferenceIdeal.Read.val_main_v12 (F := Ideal) h x1 x2)
        (fun p => Cert.ReferenceIdeal.Read.val_main_v16 (F := Ideal) x2 (ValueIdx.ix1 p))
        x0 x3 (fun q => x4 (ValueIdx.ix1 q)) x5 (fun q => x6 (ValueIdx.ix1 q)) x7 (fun q => x8 (ValueIdx.ix1 q)) := by
  rw [layer2, layer1, layer0]
  unfold Cert.Sage.net
  rfl

end Cert.Sage.Ref

end
-- ==== Proof.Bridge.lean ====
/-
  The two idealized programs compute one function.

  Run from memories that agree on the arguments, the idealized kernel ends with its result at the three-layer
  composite of the specification over its own host-side aggregation and degree, and the idealized reference ends
  with its result at the same composite over its own. The two aggregations are one map — the same gather at the
  looped sources and the same scatter-add along the looped destinations, operation for operation — and so are the
  two degrees; with the arguments identified nothing else differs. No law of the extended reals is needed beyond
  what each side's layer lemma already used: the two programs form the same sums of the same products in the same
  order, so the inputs' finiteness is never opened.
-/
import proofs.«115634_j10282151707715_1_alg».proof.Defs
import proofs.«115634_j10282151707715_1_alg».proof.Proof.KernelRun
import proofs.«115634_j10282151707715_1_alg».proof.Proof.KernelResult
import proofs.«115634_j10282151707715_1_alg».proof.Proof.KernelRegion0
import proofs.«115634_j10282151707715_1_alg».proof.Proof.KernelRegion1
import proofs.«115634_j10282151707715_1_alg».proof.Proof.KernelRegion2
import proofs.«115634_j10282151707715_1_alg».proof.Proof.RefLayers
import proofs.«115634_j10282151707715_1_alg».proof.Proof.Gen.ReferenceIdeal.Run
import proofs.«115634_j10282151707715_1_alg».proof.Proof.Gen.Pre_finite_inputs

set_option maxRecDepth 16384

noncomputable section

namespace Cert.Sage

open Idealize.ShloMosaic Idealize.ShloMosaic.TcCoe Idealize.SL.Sem

/-- Both idealized programs run, and end with equal results: the kernel's result buffer at the last boundary's
    contents, which both sides' layer-by-layer readings identify with one term. -/
theorem algebraic : Cert.algebraic_KernelIdeal_ReferenceIdeal := by
  intro m ρ m' ρ' _ hagree
  refine ⟨fun c => Cert.KernelIdeal.Gen.W25 m ρ c (Proc.devRef .tc Cert.KernelIdeal.main_v55),
    Cert.Sage.Ker.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v79_eq, Cert.Sage.Ref.result_eq, h0, h1, h2, h3, h4, h5, h6, h7, h8]
  exact (Cert.Sage.Ker.result_eq m ρ c Cert.Sage.Ker.region0_out Cert.Sage.Ker.region1_out Cert.Sage.Ker.region2_out).symm

end Cert.Sage

end
-- ==== Proof.lean ====
/-
  Three stacked graph-convolution layers: the Pallas kernel against its jnp reference, on the extended reals.

  Each layer averages a node's features with those of its in-neighbours (one self-loop per node appended to the edge
  lists), multiplies by the transposed weights, adds the bias and — in the two hidden layers — takes the maximum with
  zero:  out = act(((neigh + x) / (deg + 1)) · Wᵀ + b).  The kernel computes the aggregation and the degree on the
  host exactly as the reference does and runs the dense part of each layer in one launch over rows padded from 50000
  to 13 blocks of 4096, cutting the padding off again; its matrix product goes through a narrower float format, which
  on the extended reals is the identity. The reference computes the same layer with a host division, a host
  contraction against the transposed weights and a host maximum.

  The frames of the two kernel programs are the generated ones; the reference's frame is its generated run with the
  result dropped; the idealization rewrote nothing, so nothing is owed for it. The value claim is the bridge of
  `Proof/Bridge.lean`: the kernel's run with its result named (`Proof/KernelRun.lean`), that result read back through
  the three launches (`Proof/KernelResult.lean` over the per-launch array theorems of `Proof/KernelRegion*.lean` and
  the host stretches of `Proof/KernelEntry*.lean`), the reference's stages read as the same layers
  (`Proof/RefLayers.lean`), both against the one specification of `Proof/SageSpec.lean`.
-/
import proofs.«115634_j10282151707715_1_alg».proof.Defs
import proofs.«115634_j10282151707715_1_alg».proof.Proof.Gen.Kernel
import proofs.«115634_j10282151707715_1_alg».proof.Proof.Gen.Kernel.Skeleton
import proofs.«115634_j10282151707715_1_alg».proof.Proof.Gen.Kernel.Launch
import proofs.«115634_j10282151707715_1_alg».proof.Proof.Gen.Kernel.Points
import proofs.«115634_j10282151707715_1_alg».proof.Proof.Gen.Kernel.Frame
import proofs.«115634_j10282151707715_1_alg».proof.Proof.Gen.KernelIdeal
import proofs.«115634_j10282151707715_1_alg».proof.Proof.Gen.KernelIdeal.Skeleton
import proofs.«115634_j10282151707715_1_alg».proof.Proof.Gen.KernelIdeal.Launch
import proofs.«115634_j10282151707715_1_alg».proof.Proof.Gen.KernelIdeal.Points
import proofs.«115634_j10282151707715_1_alg».proof.Proof.Gen.KernelIdeal.Frame
import proofs.«115634_j10282151707715_1_alg».proof.Proof.Gen.ReferenceIdeal
import proofs.«115634_j10282151707715_1_alg».proof.Proof.Gen.ReferenceIdeal.Run
import proofs.«115634_j10282151707715_1_alg».proof.Proof.Gen.Pre_finite_inputs
import proofs.«115634_j10282151707715_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Sage.algebraic⟩

end Cert.Proof

end
